-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x256 : Shape := ⟨3, ![16, 4096, 256]⟩
abbrev S256x256 : Shape := ⟨2, ![256, 256]⟩
abbrev S256 : Shape := ⟨1, ![256]⟩
abbrev S_ : Shape := ⟨0, ![]⟩

class Facts : Prop where
  bcast_S_S16x4096x256 : S_.BroadcastsInDim S16x4096x256 (![] : Fin 0 → Fin S16x4096x256.rank)
  reducesTo_S16x4096x256_S_d0_1_2 : S16x4096x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256x256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S16x4096x256 .f32) (main_arg1 : FVec F S16x4096x256 .f32) (main_arg2 : FVec F S16x4096x256 .f32) (main_arg3 : FVec F S256x256 .f32) (main_arg4 : FVec F S256 .f32) (main_arg5 : FVec F S256x256 .f32) (main_arg6 : FVec F S256 .f32) : IVec S_ 1 :=
  let main_v0 : FVec F S16x4096x256 .f32 := Host.absf main_arg0
  let main_cst : FVec F S_ .f32 := constant S_ .f32 0x7F800000#32
  let main_v1 : FVec F S16x4096x256 .f32 := broadcastInDim S16x4096x256 ![] bcast_S_S16x4096x256 main_cst
  let main_v2 : IVec S16x4096x256 1 := cmpf .olt main_v0 main_v1
  let main_c : IVec S_ 1 := constantI S_ 1 1#1
  let main_v3 : IVec S_ 1 := (fun x v => Host.reduce IntOp.andi x v reducesTo_S16x4096x256_S_d0_1_2 h_S_) main_v2 main_c
  let main_v4 : FVec F S16x4096x256 .f32 := Host.absf main_arg1
  let main_cst_0 : FVec F S_ .f32 := constant S_ .f32 0x7F800000#32
  let main_v5 : FVec F S16x4096x256 .f32 := broadcastInDim S16x4096x256 ![] bcast_S_S16x4096x256 main_cst_0
  let main_v6 : IVec S16x4096x256 1 := cmpf .olt main_v4 main_v5
  let main_c_1 : IVec S_ 1 := constantI S_ 1 1#1
  let main_v7 : IVec S_ 1 := (fun x v => Host.reduce IntOp.andi x v reducesTo_S16x4096x256_S_d0_1_2 h_S_) main_v6 main_c_1
  let main_v8 : IVec S_ 1 := andi main_v3 main_v7
  let main_v9 : FVec F S16x4096x256 .f32 := Host.absf main_arg2
  let main_cst_2 : FVec F S_ .f32 := constant S_ .f32 0x7F800000#32
  let main_v10 : FVec F S16x4096x256 .f32 := broadcastInDim S16x4096x256 ![] bcast_S_S16x4096x256 main_cst_2
  let main_v11 : IVec S16x4096x256 1 := cmpf .olt main_v9 main_v10
  let main_c_3 : IVec S_ 1 := constantI S_ 1 1#1
  let main_v12 : IVec S_ 1 := (fun x v => Host.reduce IntOp.andi x v reducesTo_S16x4096x256_S_d0_1_2 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S16x4096x256 : Shape := ⟨3, ![16, 4096, 256]⟩
abbrev S256x256 : Shape := ⟨2, ![256, 256]⟩
abbrev S256 : Shape := ⟨1, ![256]⟩
abbrev S1x256 : Shape := ⟨2, ![1, 256]⟩
abbrev S16x256x256 : Shape := ⟨3, ![16, 256, 256]⟩
abbrev S1x4096x256 : Shape := ⟨3, ![1, 4096, 256]⟩
abbrev S1x256x256 : Shape := ⟨3, ![1, 256, 256]⟩
abbrev S4096x256 : Shape := ⟨2, ![4096, 256]⟩
abbrev S4096 : Shape := ⟨1, ![4096]⟩
abbrev S4096x1 : Shape := ⟨2, ![4096, 1]⟩

abbrev nBuf : Space → Nat
  | .hbm => 11
  | .vmem => 16
  | .smem => 0
  | _ => 0

abbrev bufTy : (tb : Table) → Fin (tcTables nBuf tb) → BufTy
  | .hbm, ⟨0, _⟩ => ⟨S16x4096x256, .f32⟩
  | .hbm, ⟨1, _⟩ => ⟨S16x4096x256, .f32⟩
  | .hbm, ⟨2, _⟩ => ⟨S16x4096x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S1x256, .f32⟩
  | .hbm, ⟨8, _⟩ => ⟨S1x256, .f32⟩
  | .hbm, ⟨9, _⟩ => ⟨S16x256x256, .f32⟩
  | .hbm, ⟨10, _⟩ => ⟨S16x4096x256, .f32⟩
  | .local _ .vmem, ⟨0, _⟩ => ⟨S1x4096x256, .f32⟩
  | .local _ .vmem, ⟨1, _⟩ => ⟨S1x4096x256, .f32⟩
  | .local _ .vmem, ⟨2, _⟩ => ⟨S1x4096x256, .f32⟩
  | .local _ .vmem, ⟨3, _⟩ => ⟨S1x4096x256, .f32⟩
  | .local _ .vmem, ⟨4, _⟩ => ⟨S256x256, .f32⟩
  | .local _ .vmem, ⟨5, _⟩ => ⟨S1x256, .f32⟩
  | .local _ .vmem, ⟨6, _⟩ => ⟨S1x256x256, .f32⟩
  | .local _ .vmem, ⟨7, _⟩ => ⟨S1x256x256, .f32⟩
  | .local _ .vmem, ⟨8, _⟩ => ⟨S1x4096x256, .f32⟩
  | .local _ .vmem, ⟨9, _⟩ => ⟨S1x4096x256, .f32⟩
  | .local _ .vmem, ⟨10, _⟩ => ⟨S256x256, .f32⟩
  | .local _ .vmem, ⟨11, _⟩ => ⟨S1x256, .f32⟩
  | .local _ .vmem, ⟨12, _⟩ => ⟨S1x256x256, .f32⟩
  | .local _ .vmem, ⟨13, _⟩ => ⟨S1x256x256, .f32⟩
  | .local _ .vmem, ⟨14, _⟩ => ⟨S1x4096x256, .f32⟩
  | .local _ .vmem, ⟨15, _⟩ => ⟨S1x4096x256, .f32⟩
  | _, _ => ⟨S16x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x4096x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S256_S1x256 : S256.ShapeCasts S1x256
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  bitsLt_bf16_f32 : FTy.bits .bf16 < FTy.bits .f32
  broadcasts_S1x256_S4096x256 : S1x256.Broadcasts S4096x256
  reduces_S4096x256_S256 : S4096x256.Reduces [0] S256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  reduces_S4096x256_S4096 : S4096x256.Reduces [1] S4096
  shapeCasts_S4096_S4096x1 : S4096.ShapeCasts S4096x1
  broadcasts_S4096x1_S4096x256 : S4096x1.Broadcasts S4096x256
  shapeCasts_S4096x256_S1x4096x256 : S4096x256.ShapeCasts S1x4096x256
  dot_S4096x256_S256x256_S4096x256_1_0_0_1_n_n_wf : DotDims.WF S4096x256 S256x256 S4096x256 [1] [0] [0] [1] [] []
  dot_S4096x256_S4096x256_S256x256_0_0_1_1_n_n_wf : DotDims.WF S4096x256 S4096x256 S256x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S16x4096x256.size a
  hwx0_0 : ∀ i : grid0.Coords, EltTy.bits .f32 = 32 ∨ (Rect.block (s := S16x4096x256) S1x4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x256.size a ≤ S16x4096x256.size a
  hwx0_1 : ∀ i : grid0.Coords, EltTy.bits .f32 = 32 ∨ (Rect.block (s := S16x4096x256) S1x4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x256.size a ≤ S16x256x256.size a
  hwx0_4 : ∀ i : grid0.Coords, EltTy.bits .f32 = 32 ∨ (Rect.block (s := S16x256x256) S1x256x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096x256.size a ≤ S16x4096x256.size a
  hwx1_0 : ∀ i : grid1.Coords, EltTy.bits .f32 = 32 ∨ (Rect.block (s := S16x4096x256) S1x4096x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x256.size a ≤ S16x256x256.size a
  hwx1_3 : ∀ i : grid1.Coords, EltTy.bits .f32 = 32 ∨ (Rect.block (s := S16x256x256) S1x256x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x4096x256.size a ≤ S16x4096x256.size a
  hwx1_4 : ∀ i : grid1.Coords, EltTy.bits .f32 = 32 ∨ (Rect.block (s := S16x4096x256) S1x4096x256.size (cc1_transform_4 i) (hinb1_4 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S4096x256_S256x256_0_0_1_1_n_n : DotDims S4096x256 S4096x256 S256x256 where
  lhsContracting := [0]
  rhsContracting := [0]
  lhsNonContracting := [1]
  rhsNonContracting := [1]
  lhsBatch := []
  rhsBatch := []
  wf := dot_S4096x256_S4096x256_S256x256_0_0_1_1_n_n_wf

abbrev win0_0 : Pipeline.Window sig grid0 :=
  Pipeline.Window.ofSpec (Memref.whole main_arg1) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1x4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x256x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x4096x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S16x4096x256 : Shape := ⟨3, ![16, 4096, 256]⟩
abbrev S256x256 : Shape := ⟨2, ![256, 256]⟩
abbrev S256 : Shape := ⟨1, ![256]⟩
abbrev S1x1x256 : Shape := ⟨3, ![1, 1, 256]⟩
abbrev S_ : Shape := ⟨0, ![]⟩
abbrev S16x256 : Shape := ⟨2, ![16, 256]⟩
abbrev S16x1x256 : Shape := ⟨3, ![16, 1, 256]⟩
abbrev S16x4096 : Shape := ⟨2, ![16, 4096]⟩
abbrev S16x4096x1 : Shape := ⟨3, ![16, 4096, 1]⟩
abbrev S16x256x256 : Shape := ⟨3, ![16, 256, 256]⟩

abbrev nBuf : Space → Nat
  | .hbm => 77
  | .vmem => 0
  | .smem => 0
  | _ => 0

abbrev bufTy : (tb : Table) → Fin (tcTables nBuf tb) → BufTy
  | .hbm, ⟨0, _⟩ => ⟨S16x4096x256, .f32⟩
  | .hbm, ⟨1, _⟩ => ⟨S16x4096x256, .f32⟩
  | .hbm, ⟨2, _⟩ => ⟨S16x4096x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S16x4096x256, .f32⟩
  | .hbm, ⟨8, _⟩ => ⟨S1x1x256, .f32⟩
  | .hbm, ⟨9, _⟩ => ⟨S16x4096x256, .f32⟩
  | .hbm, ⟨10, _⟩ => ⟨S16x4096x256, .f32⟩
  | .hbm, ⟨11, _⟩ => ⟨S16x4096x256, .f32⟩
  | .hbm, ⟨12, _⟩ => ⟨S16x4096x256, .f32⟩
  | .hbm, ⟨13, _⟩ => ⟨S_, .f32⟩
  | .hbm, ⟨14, _⟩ => ⟨S16x4096x256, .f32⟩
  | .hbm, ⟨15, _⟩ => ⟨S16x4096x256, .f32⟩
  | .hbm, ⟨16, _⟩ => ⟨S_, .f32⟩
  | .hbm, ⟨17, _⟩ => ⟨S16x4096x256, .f32⟩
  | .hbm, ⟨18, _⟩ => ⟨S16x4096x256, .f32⟩
  | .hbm, ⟨19, _⟩ => ⟨S16x4096x256, .f32⟩
  | .hbm, ⟨20, _⟩ => ⟨S1x1x256, .f32⟩
  | .hbm, ⟨21, _⟩ => ⟨S16x4096x256, .f32⟩
  | .hbm, ⟨22, _⟩ => ⟨S16x4096x256, .f32⟩
  | .hbm, ⟨23, _⟩ => ⟨S16x4096x256, .f32⟩
  | .hbm, ⟨24, _⟩ => ⟨S16x4096x256, .f32⟩
  | .hbm, ⟨25, _⟩ => ⟨S_, .f32⟩
  | .hbm, ⟨26, _⟩ => ⟨S16x4096x256, .f32⟩
  | .hbm, ⟨27, _⟩ => ⟨S16x4096x256, .f32⟩
  | .hbm, ⟨28, _⟩ => ⟨S_, .f32⟩
  | .hbm, ⟨29, _⟩ => ⟨S16x4096x256, .f32⟩
  | .hbm, ⟨30, _⟩ => ⟨S16x4096x256, .f32⟩
  | .hbm, ⟨31, _⟩ => ⟨S_, .f32⟩
  | .hbm, ⟨32, _⟩ => ⟨S16x256, .f32⟩
  | .hbm, ⟨33, _⟩ => ⟨S16x1x256, .f32⟩
  | .hbm, ⟨34, _⟩ => ⟨S_, .f32⟩
  | .hbm, ⟨35, _⟩ => ⟨S16x1x256, .f32⟩
  | .hbm, ⟨36, _⟩ => ⟨S16x1x256, .f32⟩
  | .hbm, ⟨37, _⟩ => ⟨S16x4096x256, .f32⟩
  | .hbm, ⟨38, _⟩ => ⟨S16x4096x256, .f32⟩
  | .hbm, ⟨39, _⟩ => ⟨S_, .f32⟩
  | .hbm, ⟨40, _⟩ => ⟨S16x4096, .f32⟩
  | .hbm, ⟨41, _⟩ => ⟨S16x4096x1, .f32⟩
  | .hbm, ⟨42, _⟩ => ⟨S_, .f32⟩
  | .hbm, ⟨43, _⟩ => ⟨S16x4096x1, .f32⟩
  | .hbm, ⟨44, _⟩ => ⟨S16x4096x1, .f32⟩
  | .hbm, ⟨45, _⟩ => ⟨S16x4096x256, .f32⟩
  | .hbm, ⟨46, _⟩ => ⟨S16x4096x256, .f32⟩
  | .hbm, ⟨47, _⟩ => ⟨S16x4096x256, .f32⟩
  | .hbm, ⟨48, _⟩ => ⟨S_, .f32⟩
  | .hbm, ⟨49, _⟩ => ⟨S16x256, .f32⟩
  | .hbm, ⟨50, _⟩ => ⟨S_, .f32⟩
  | .hbm, ⟨51, _⟩ => ⟨S16x256, .f32⟩
  | .hbm, ⟨52, _⟩ => ⟨S16x256, .f32⟩
  | .hbm, ⟨53, _⟩ => ⟨S16x1x256, .f32⟩
  | .hbm, ⟨54, _⟩ => ⟨S16x4096x256, .f32⟩
  | .hbm, ⟨55, _⟩ => ⟨S16x4096x256, .f32⟩
  | .hbm, ⟨56, _⟩ => ⟨S16x4096x256, .f32⟩
  | .hbm, ⟨57, _⟩ => ⟨S_, .f32⟩
  | .hbm, ⟨58, _⟩ => ⟨S16x256, .f32⟩
  | .hbm, ⟨59, _⟩ => ⟨S16x1x256, .f32⟩
  | .hbm, ⟨60, _⟩ => ⟨S16x4096x256, .f32⟩
  | .hbm, ⟨61, _⟩ => ⟨S16x4096x256, .f32⟩
  | .hbm, ⟨62, _⟩ => ⟨S16x256x256, .f32⟩
  | .hbm, ⟨63, _⟩ => ⟨S16x4096x256, .f32⟩
  | .hbm, ⟨64, _⟩ => ⟨S_, .f32⟩
  | .hbm, ⟨65, _⟩ => ⟨S16x4096, .f32⟩
  | .hbm, ⟨66, _⟩ => ⟨S16x4096x1, .f32⟩
  | .hbm, ⟨67, _⟩ => ⟨S16x4096x1, .f32⟩
  | .hbm, ⟨68, _⟩ => ⟨S16x4096x1, .f32⟩
  | .hbm, ⟨69, _⟩ => ⟨S_, .f32⟩
  | .hbm, ⟨70, _⟩ => ⟨S16x4096x1, .f32⟩
  | .hbm, ⟨71, _⟩ => ⟨S16x4096x1, .f32⟩
  | .hbm, ⟨72, _⟩ => ⟨S_, .f32⟩
  | .hbm, ⟨73, _⟩ => ⟨S16x4096x1, .f32⟩
  | .hbm, ⟨74, _⟩ => ⟨S16x4096x1, .f32⟩
  | .hbm, ⟨75, _⟩ => ⟨S16x4096x256, .f32⟩
  | .hbm, ⟨76, _⟩ => ⟨S16x4096x256, .f32⟩
  | _, _ => ⟨S16x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_cst_12 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S16x4096x256_0_1_2 : S1x1x256.BroadcastsInDim S16x4096x256 (![0, 1, 2] : Fin 3 → Fin S16x4096x256.rank)
  bcast_S_S16x4096x256 : S_.BroadcastsInDim S16x4096x256 (![] : Fin 0 → Fin S16x4096x256.rank)
  reducesTo_S16x4096x256_S16x256_d1 : S16x4096x256.ReducesTo [1] S16x256
  h_S_ : 0 < S_.numel
  bcast_S16x256_S16x1x256_0_2 : S16x256.BroadcastsInDim S16x1x256 (![0, 2] : Fin 2 → Fin S16x1x256.rank)
  bcast_S_S16x1x256 : S_.BroadcastsInDim S16x1x256 (![] : Fin 0 → Fin S16x1x256.rank)
  bcast_S16x1x256_S16x4096x256_0_1_2 : S16x1x256.BroadcastsInDim S16x4096x256 (![0, 1, 2] : Fin 3 → Fin S16x4096x256.rank)
  reducesTo_S16x4096x256_S16x4096_d2 : S16x4096x256.ReducesTo [2] S16x4096
  bcast_S16x4096_S16x4096x1_0_1 : S16x4096.BroadcastsInDim S16x4096x1 (![0, 1] : Fin 2 → Fin S16x4096x1.rank)
  bcast_S_S16x4096x1 : S_.BroadcastsInDim S16x4096x1 (![] : Fin 0 → Fin S16x4096x1.rank)
  bcast_S16x4096x1_S16x4096x256_0_1_2 : S16x4096x1.BroadcastsInDim S16x4096x256 (![0, 1, 2] : Fin 3 → Fin S16x4096x256.rank)
  bcast_S_S16x256 : S_.BroadcastsInDim S16x256 (![] : Fin 0 → Fin S16x256.rank)
  dot_S16x4096x256_S256x256_S16x4096x256_2_0_01_1_n_n_wf : DotDims.WF S16x4096x256 S256x256 S16x4096x256 [2] [0] [0, 1] [1] [] []
  dot_S16x4096x256_S16x4096x256_S16x256x256_1_1_2_2_0_0_wf : DotDims.WF S16x4096x256 S16x4096x256 S16x256x256 [1] [1] [2] [2] [0] [0]
  dot_S16x4096x256_S16x256x256_S16x4096x256_2_1_1_2_0_0_wf : DotDims.WF S16x4096x256 S16x256x256 S16x4096x256 [2] [1] [1] [2] [0] [0]

variable [Facts₀]

def dot_S16x4096x256_S256x256_S16x4096x256_2_0_01_1_n_n : DotDims S16x4096x256 S256x256 S16x4096x256 where
  lhsContracting := [2]
  rhsContracting := [0]
  lhsNonContracting := [0, 1]
  rhsNonContracting := [1]
  lhsBatch := []
  rhsBatch := []
  wf := dot_S16x4096x256_S256x256_S16x4096x256_2_0_01_1_n_n_wf
def dot_S16x4096x256_S16x4096x256_S16x256x256_1_1_2_2_0_0 : DotDims S16x4096x256 S16x4096x256 S16x256x256 where
  lhsContracting := [1]
  rhsContracting := [1]
  lhsNonContracting := [2]
  rhsNonContracting := [2]
  lhsBatch := [0]
  rhsBatch := [0]
  wf := dot_S16x4096x256_S16x4096x256_S16x256x256_1_1_2_2_0_0_wf
def dot_S16x4096x256_S16x256x256_S16x4096x256_2_1_1_2_0_0 : DotDims S16x4096x256 S16x256x256 S16x4096x256 where
  lhsContracting := [2]
  rhsContracting := [1]
  lhsNonContracting := [1]
  rhsNonContracting := [2]
  lhsBatch := [0]
  rhsBatch := [0]
  wf := dot_S16x4096x256_S16x256x256_S16x4096x256_2_1_1_2_0_0_wf

class Facts : Prop extends Facts₀ where

variable [Facts]
-- ==== Proof.KernelRun.lean ====
/-
  The idealized kernel's run with its RESULT named.

  @main is three segments: the two reshapes of the bias rows, then the region that builds the [16, 256, 256]
  state array, then the region that builds the [16, 4096, 256] result from it. Every weakly fair execution
  terminates without a fault, and the final memory holds, at every buffer that outlives a region, the contents
  reached by folding the segments from the launch memory. Read at the result's buffer this gives the result array
  as "what the second region's write-backs leave", beside the seven arguments as launched.
-/
import proofs.«114471_j35330400977338_2_alg».proof.Proof.Gen.KernelIdeal.Frame

set_option maxRecDepth 16384

noncomputable section

namespace Cert.FlowAttention.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates, nothing faulting; the result's buffer ends at
    the last boundary's contents, and every argument array ends as launched. -/
theorem run : θ_run defs (onTc (τ := τ) (main (F := F))) ⟨m, fun _ => 0, ρ⟩ (fun r => ∀ c : Dev nD,
      r.2.mem ((c.tc : Thread nD τ).loc main_v3) = W3 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v3 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

end Cert.FlowAttention.KernelRun

end
-- ==== Proof.Ops.lean ====
/-
  The operations of the two kernel bodies that are not pointwise, each read at explicit coordinates on the
  extended reals: a [4096, 256] · [256, 256] product at (n, e) is the sum over the shared axis; the product that
  contracts the long axis of two [4096, 256] operands at (d, e) is the sum over the 4096 rows; a sum or a maximum
  down a column, and a sum along a row; a vector turned into a column, and a column repeated along its row.
-/
import proofs.«114471_j35330400977338_2_alg».proof.Proof.Gen.KernelIdeal
import Idealize.ShloMosaic.PureOps.Ideal.Laws
import Idealize.ShloMosaic.Lib.ValueIdx
import Idealize.ShloMosaic.Lib.ValueLayout
import Idealize.ShloMosaic.Lib.Pipeline.Value

noncomputable section

namespace Cert.FlowAttention.Ops

open Idealize.ShloMosaic Idealize.ShloMosaic.ValueIdx Cert.KernelIdeal Cert.KernelIdeal.Facts₀ Cert.KernelIdeal.Facts

/-! ## The operand indices of the two contractions, axis by axis -/

theorem rows_lhs_0 (j : S4096x256.Idx) (q : dot_S4096x256_S256x256_S4096x256_1_0_0_1_n_n.contr.Idx) :
    (dot_S4096x256_S256x256_S4096x256_1_0_0_1_n_n.lhsIdx j q 0).val = (j 0).val := by
  unfold DotDims.lhsIdx
  rw [dif_neg (show ¬(0 : Fin S4096x256.rank) ∈ dot_S4096x256_S256x256_S4096x256_1_0_0_1_n_n.lhsBatch by decide),
    dif_pos (show (0 : Fin S4096x256.rank) ∈ dot_S4096x256_S256x256_S4096x256_1_0_0_1_n_n.lhsNonContracting by decide)]
  rfl
theorem rows_lhs_1 (j : S4096x256.Idx) (q : dot_S4096x256_S256x256_S4096x256_1_0_0_1_n_n.contr.Idx) :
    (dot_S4096x256_S256x256_S4096x256_1_0_0_1_n_n.lhsIdx j q 1).val = (q ⟨0, by decide⟩).val :=
  dot_S4096x256_S256x256_S4096x256_1_0_0_1_n_n.lhsIdx_val_of_single rfl j q
theorem rows_rhs_0 (j : S4096x256.Idx) (q : dot_S4096x256_S256x256_S4096x256_1_0_0_1_n_n.contr.Idx) :
    (dot_S4096x256_S256x256_S4096x256_1_0_0_1_n_n.rhsIdx j q 0).val = (q ⟨0, by decide⟩).val :=
  dot_S4096x256_S256x256_S4096x256_1_0_0_1_n_n.rhsIdx_val_of_single rfl j q
theorem rows_rhs_1 (j : S4096x256.Idx) (q : dot_S4096x256_S256x256_S4096x256_1_0_0_1_n_n.contr.Idx) :
    (dot_S4096x256_S256x256_S4096x256_1_0_0_1_n_n.rhsIdx j q 1).val = (j 1).val := by
  unfold DotDims.rhsIdx
  rw [dif_neg (show ¬(1 : Fin S256x256.rank) ∈ dot_S4096x256_S256x256_S4096x256_1_0_0_1_n_n.rhsBatch by decide),
    dif_pos (show (1 : Fin S256x256.rank) ∈ dot_S4096x256_S256x256_S4096x256_1_0_0_1_n_n.rhsNonContracting by decide)]
  rfl

theorem cols_lhs_0 (j : S256x256.Idx) (q : dot_S4096x256_S4096x256_S256x256_0_0_1_1_n_n.contr.Idx) :
    (dot_S4096x256_S4096x256_S256x256_0_0_1_1_n_n.lhsIdx j q 0).val = (q ⟨0, by decide⟩).val :=
  dot_S4096x256_S4096x256_S256x256_0_0_1_1_n_n.lhsIdx_val_of_single rfl j q
theorem cols_lhs_1 (j : S256x256.Idx) (q : dot_S4096x256_S4096x256_S256x256_0_0_1_1_n_n.contr.Idx) :
    (dot_S4096x256_S4096x256_S256x256_0_0_1_1_n_n.lhsIdx j q 1).val = (j 0).val := by
  unfold DotDims.lhsIdx
  rw [dif_neg (show ¬(1 : Fin S4096x256.rank) ∈ dot_S4096x256_S4096x256_S256x256_0_0_1_1_n_n.lhsBatch by decide),
    dif_pos (show (1 : Fin S4096x256.rank) ∈ dot_S4096x256_S4096x256_S256x256_0_0_1_1_n_n.lhsNonContracting by decide)]
  rfl
theorem cols_rhs_0 (j : S256x256.Idx) (q : dot_S4096x256_S4096x256_S256x256_0_0_1_1_n_n.contr.Idx) :
    (dot_S4096x256_S4096x256_S256x256_0_0_1_1_n_n.rhsIdx j q 0).val = (q ⟨0, by decide⟩).val :=
  dot_S4096x256_S4096x256_S256x256_0_0_1_1_n_n.rhsIdx_val_of_single rfl j q
theorem cols_rhs_1 (j : S256x256.Idx) (q : dot_S4096x256_S4096x256_S256x256_0_0_1_1_n_n.contr.Idx) :
    (dot_S4096x256_S4096x256_S256x256_0_0_1_1_n_n.rhsIdx j q 1).val = (j 1).val := by
  unfold DotDims.rhsIdx
  rw [dif_neg (show ¬(1 : Fin S4096x256.rank) ∈ dot_S4096x256_S4096x256_S256x256_0_0_1_1_n_n.rhsBatch by decide),
    dif_pos (show (1 : Fin S4096x256.rank) ∈ dot_S4096x256_S4096x256_S256x256_0_0_1_1_n_n.rhsNonContracting by decide)]
  rfl

/-! ## The two matrix products -/

/-- Rows of the left operand against columns of the right: entry (n, e) is the sum over the 256 shared coordinates. -/
theorem matmul_rows_apply (l : FVec Ideal S4096x256 .bf16) (r : FVec Ideal S256x256 .bf16) (n : Fin 4096) (e : Fin 256) :
    matmul dot_S4096x256_S256x256_S4096x256_1_0_0_1_n_n none l r (constant S4096x256 .f32 0x00000000#32) (ix2 n e)
      = ∑ k : Fin 256, l (ix2 n k) * r (ix2 k e) := by
  simp only [matmul]
  rw [Ideal.matmul_constant_zero_apply,
    ← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 n e)
      ((contrEquiv1 dot_S4096x256_S256x256_S4096x256_1_0_0_1_n_n 256 rfl rfl).symm k) = ix2 n k :=
    funext fun a => Fin.ext (by
      match a with
      | ⟨0, _⟩ => exact rows_lhs_0 _ _
      | ⟨1, _⟩ => exact (rows_lhs_1 _ _).trans hk)
  have er : dot_S4096x256_S256x256_S4096x256_1_0_0_1_n_n.rhsIdx (ix2 n e)
      ((contrEquiv1 dot_S4096x256_S256x256_S4096x256_1_0_0_1_n_n 256 rfl rfl).symm k) = ix2 k e :=
    funext fun a => Fin.ext (by
      match a with
      | ⟨0, _⟩ => exact (rows_rhs_0 _ _).trans hk
      | ⟨1, _⟩ => exact rows_rhs_1 _ _)
  rw [el, er]

/-- Both operands contracted along their long axis: entry (d, e) is the sum over the 4096 rows. -/
theorem matmul_cols_apply (l r : FVec Ideal S4096x256 .bf16) (d e : Fin 256) :
    matmul dot_S4096x256_S4096x256_S256x256_0_0_1_1_n_n none l r (constant S256x256 .f32 0x00000000#32) (ix2 d e)
      = ∑ n : Fin 4096, l (ix2 n d) * r (ix2 n e) := by
  simp only [matmul]
  rw [Ideal.matmul_constant_zero_apply,
    ← Equiv.sum_comp (contrEquiv1 dot_S4096x256_S4096x256_S256x256_0_0_1_1_n_n 4096 rfl rfl).symm]
  refine Finset.sum_congr rfl fun k _ => ?_
  have hk := contrEquiv1_symm_val dot_S4096x256_S4096x256_S256x256_0_0_1_1_n_n 4096 rfl rfl k
  have el : dot_S4096x256_S4096x256_S256x256_0_0_1_1_n_n.lhsIdx (ix2 d e)
      ((contrEquiv1 dot_S4096x256_S4096x256_S256x256_0_0_1_1_n_n 4096 rfl rfl).symm k) = ix2 k d :=
    funext fun a => Fin.ext (by
      match a with
      | ⟨0, _⟩ => exact (cols_lhs_0 _ _).trans hk
      | ⟨1, _⟩ => exact cols_lhs_1 _ _)
  have er : dot_S4096x256_S4096x256_S256x256_0_0_1_1_n_n.rhsIdx (ix2 d e)
      ((contrEquiv1 dot_S4096x256_S4096x256_S256x256_0_0_1_1_n_n 4096 rfl rfl).symm k) = ix2 k e :=
    funext fun a => Fin.ext (by
      match a with
      | ⟨0, _⟩ => exact (cols_rhs_0 _ _).trans hk
      | ⟨1, _⟩ => exact cols_rhs_1 _ _)
  rw [el, er]

/-! ## Reductions down a column and along a row -/

/-- The index a column reduction reads at row `k` of column `e`. -/
theorem lift_col (e : Fin 256) (k : Fin 4096) :
    reduces_S4096x256_S256.lift (ix1 e) k = ix2 k e :=
  funext fun a => Fin.ext (by match a with | ⟨0, _⟩ => rfl | ⟨1, _⟩ => rfl)

/-- The index a row reduction reads at column `k` of row `n`. -/
theorem lift_row (n : Fin 4096) (k : Fin 256) :
    reduces_S4096x256_S4096.lift (ix1 n) k = ix2 n k :=
  funext fun a => Fin.ext (by match a with | ⟨0, _⟩ => rfl | ⟨1, _⟩ => rfl)

/-- A sum down a column. -/
theorem colSum_apply (src : FVec Ideal S4096x256 .f32) (e : Fin 256) :
    multiReduction .add [0] S256 src 0x00000000#32 reduces_S4096x256_S256 (.inl rfl) rfl (ix1 e)
      = ∑ n : Fin 4096, src (ix2 n e) := by
  refine (Ideal.multiReduction_add_single src 0x00000000#32 reduces_S4096x256_S256 (.inl rfl) rfl (ix1 e)).trans ?_
  show ∑ k : Fin 4096, src (reduces_S4096x256_S256.lift (ix1 e) k) = _
  exact Finset.sum_congr rfl fun k _ => congrArg src (lift_col e k)

/-- A maximum down a column, folded from the accumulator's word. -/
theorem colMax_apply (src : FVec Ideal S4096x256 .f32) (e : Fin 256) :
    multiReduction .maximumf [0] S256 src 0xFF800000#32 reduces_S4096x256_S256 (.inl rfl) rfl (ix1 e)
      = (Finset.univ : Finset (Fin 4096)).fold max (Ideal.ofBits .f32 0xFF800000#32) (fun n => src (ix2 n e)) := by
  refine (Ideal.multiReduction_maximumf_single src 0xFF800000#32 reduces_S4096x256_S256 (.inl rfl) rfl (ix1 e)).trans ?_
  show (Finset.univ : Finset (Fin 4096)).fold max (Ideal.ofBits .f32 0xFF800000#32) (src ∘ reduces_S4096x256_S256.lift (ix1 e)) = _
  exact congrArg (fun f => (Finset.univ : Finset (Fin 4096)).fold max (Ideal.ofBits .f32 0xFF800000#32) f)
    (funext fun k => congrArg src (lift_col e k))

/-- A sum along a row. -/
theorem rowSum_apply (src : FVec Ideal S4096x256 .f32) (n : Fin 4096) :
    multiReduction .add [1] S4096 src 0x00000000#32 reduces_S4096x256_S4096 (.inl rfl) rfl (ix1 n)
      = ∑ e : Fin 256, src (ix2 n e) := by
  refine (Ideal.multiReduction_add_single src 0x00000000#32 reduces_S4096x256_S4096 (.inl rfl) rfl (ix1 n)).trans ?_
  show ∑ k : Fin 256, src (reduces_S4096x256_S4096.lift (ix1 n) k) = _
  exact Finset.sum_congr rfl fun k _ => congrArg src (lift_row n k)

/-! ## A vector as a column, and a column along its row -/

/-- An `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.FlowAttention.Ops

end
-- ==== Proof.Spec.lean ====
/-
  Flow attention with sigmoid feature maps, as ONE function of the argument arrays.

  For a batch `b`, with `X n d` a [4096, 256] slab of an input, `W` a [256, 256] weight and `β` a bias row:
    φ(X, W, β) n e   = logistic (∑_d X n d · W d e + β e)                       (the feature map)
    comp(P, V) n e   = P n e / (∑_k P k e + ε) · V n e                          (column-normalised features times values)
    soft(S) n e      = exp (S n e − max_k S k e) / ∑_k exp (S k e − max_j S j e)   (softmax down the sequence axis)
    state d e        = ∑_n φ_K n d · soft(comp(φ_K, V)) n e                      (the [256, 256] state of the batch)
    out n e          = logistic (∑_e' φ_Q n e') · ∑_d (φ_Q n d / (∑_e' φ_Q n e' + ε)) · state d e
  Every sum is a finite sum on the extended reals, the maximum a fold of `max` from −∞, and `/`, `exp`, `logistic`
  the extended-real operations; the two float literals (ε and −∞) are kept as their words and never evaluated.
-/
import Idealize.ShloMosaic.PureOps.Ideal
import Idealize.ShloMosaic.PureOps.Ideal.Laws
import Idealize.ShloMosaic.Lib.ValueIdx

noncomputable section

namespace Cert.FlowAttention

open Idealize.ShloMosaic Idealize.ShloMosaic.ValueIdx

/-- The stabiliser ε added to both normalising sums, as the f32 word both programs print. -/
abbrev eps : EReal := Ideal.ofBits .f32 0x358637BD#32
/-- The value −∞ every running maximum starts from, as its f32 word. -/
abbrev negInf : EReal := Ideal.ofBits .f32 0xFF800000#32

/-- The feature map: a linear layer followed by the logistic function. -/
def phi (X : Fin 4096 → Fin 256 → EReal) (W : Fin 256 → Fin 256 → EReal) (β : Fin 256 → EReal)
    (n : Fin 4096) (e : Fin 256) : EReal :=
  Ideal.logistic ((∑ d : Fin 256, X n d * W d e) + β e)

/-- Features normalised down each column (over the sequence axis), times the values. -/
def comp (P V : Fin 4096 → Fin 256 → EReal) (n : Fin 4096) (e : Fin 256) : EReal :=
  Ideal.div (P n e) ((∑ k : Fin 4096, P k e) + eps) * V n e

/-- The maximum of a column, folded from −∞. -/
def colMax (S : Fin 4096 → Fin 256 → EReal) (e : Fin 256) : EReal :=
  (Finset.univ : Finset (Fin 4096)).fold max negInf (fun n => S n e)

/-- The shifted exponentials of a column. -/
def expo (S : Fin 4096 → Fin 256 → EReal) (n : Fin 4096) (e : Fin 256) : EReal :=
  Ideal.exp (S n e - colMax S e)

/-- Softmax down each column. -/
def soft (S : Fin 4096 → Fin 256 → EReal) (n : Fin 4096) (e : Fin 256) : EReal :=
  Ideal.div (expo S n e) (∑ k : Fin 4096, expo S k e)

/-- The [256, 256] state of one batch: features of the keys against the competed values, summed over the sequence. -/
def state (K V : Fin 4096 → Fin 256 → EReal) (Wk : Fin 256 → Fin 256 → EReal) (βk : Fin 256 → EReal)
    (d e : Fin 256) : EReal :=
  ∑ n : Fin 4096, phi K Wk βk n d * soft (comp (phi K Wk βk) V) n e

/-- The sum of a row (over the feature axis). -/
def rowSum (P : Fin 4096 → Fin 256 → EReal) (n : Fin 4096) : EReal := ∑ e : Fin 256, P n e

/-- One batch of the result: the row-normalised query features against the state, gated by the logistic of the row sum. -/
def out (Q : Fin 4096 → Fin 256 → EReal) (Wq : Fin 256 → Fin 256 → EReal) (βq : Fin 256 → EReal)
    (S : Fin 256 → Fin 256 → EReal) (n : Fin 4096) (e : Fin 256) : EReal :=
  Ideal.logistic (rowSum (phi Q Wq βq) n)
    * ∑ d : Fin 256, Ideal.div (phi Q Wq βq n d) (rowSum (phi Q Wq βq) n + eps) * S d e

/-- The state array [16, 256, 256] of the key/value arguments. -/
def stateArr (K V : (⟨3, ![16, 4096, 256]⟩ : Shape).Idx → EReal) (Wk : (⟨2, ![256, 256]⟩ : Shape).Idx → EReal)
    (bk : (⟨1, ![256]⟩ : Shape).Idx → EReal) : (⟨3, ![16, 256, 256]⟩ : Shape).Idx → EReal := fun i =>
  state (fun n d => K (ix3 (i 0) n d)) (fun n e => V (ix3 (i 0) n e)) (fun d e => Wk (ix2 d e)) (fun e => bk (ix1 e)) (i 1) (i 2)

/-- THE RESULT [16, 4096, 256] as one function of the seven argument arrays, index by index. -/
def result (Q K V : (⟨3, ![16, 4096, 256]⟩ : Shape).Idx → EReal) (Wq : (⟨2, ![256, 256]⟩ : Shape).Idx → EReal)
    (bq : (⟨1, ![256]⟩ : Shape).Idx → EReal) (Wk : (⟨2, ![256, 256]⟩ : Shape).Idx → EReal)
    (bk : (⟨1, ![256]⟩ : Shape).Idx → EReal) : (⟨3, ![16, 4096, 256]⟩ : Shape).Idx → EReal := fun i =>
  out (fun n d => Q (ix3 (i 0) n d)) (fun d e => Wq (ix2 d e)) (fun e => bq (ix1 e))
    (fun d e => stateArr K V Wk bk (ix3 (i 0) d e)) (i 1) (i 2)

end Cert.FlowAttention

end
-- ==== Proof.Body.lean ====
/-
  The two kernel bodies on the extended reals, read at an index.

  Each body's stored value is cut into named pieces — the feature map of a slab, the column-normalised features times
  the values, the shifted exponentials, the softmax down the sequence axis, the row sums as a column — and each piece,
  read at explicit coordinates, is the corresponding function of the specification applied to the loaded blocks read
  at coordinates. A change of float format is the identity here, so the bf16 casts in front of each product vanish.
  The first body's value at (d, e) is the batch's state; the second body's at (n, e) is the batch's result row.
-/
import proofs.«114471_j35330400977338_2_alg».proof.Proof.Gen.KernelIdeal.Skeleton
import proofs.«114471_j35330400977338_2_alg».proof.Proof.Ops
import proofs.«114471_j35330400977338_2_alg».proof.Proof.Spec

noncomputable section

namespace Cert.FlowAttention.Body

open Idealize.ShloMosaic Idealize.ShloMosaic.ValueIdx
open Cert.KernelIdeal Cert.KernelIdeal.Facts₀ Cert.KernelIdeal.Facts
open Cert.FlowAttention Cert.FlowAttention.Ops

/-! ## The feature map of a slab -/

/-- The logistic of a slab's product with a weight plus a bias row repeated down the rows. -/
def phiV (x : FVec Ideal S1x4096x256 .f32) (w : FVec Ideal S256x256 .f32) (b : FVec Ideal S1x256 .f32) : FVec Ideal S4096x256 .f32 :=
  logistic (addf (matmul dot_S4096x256_S256x256_S4096x256_1_0_0_1_n_n none
      (truncf .bf16 (shapeCast S4096x256 x shapeCasts_S1x4096x256_S4096x256) bitsLt_bf16_f32)
      (truncf .bf16 w bitsLt_bf16_f32) (constant S4096x256 .f32 0x00000000#32))
    (broadcastTo S4096x256 (shapeCast S1x256 b shapeCasts_S1x256_S1x256) broadcasts_S1x256_S4096x256))

theorem phiV_apply (x : FVec Ideal S1x4096x256 .f32) (w : FVec Ideal S256x256 .f32) (b : FVec Ideal S1x256 .f32)
    (n : Fin 4096) (e : Fin 256) :
    phiV x w b (ix2 n e)
      = phi (fun n d => x (ix3 (0 : Fin 1) n d)) (fun d e => w (ix2 d e)) (fun e => b (ix2 (0 : Fin 1) e)) n e := by
  unfold phiV phi
  show Ideal.logistic (matmul (F := Ideal) dot_S4096x256_S256x256_S4096x256_1_0_0_1_n_n none _ _ (constant S4096x256 .f32 0x00000000#32) (ix2 n e)
    + broadcastTo S4096x256 _ broadcasts_S1x256_S4096x256 (ix2 n e)) = _
  rw [matmul_rows_apply, broadcastTo_1b_ab_apply, shapeCast_self]
  refine congrArg Ideal.logistic (congrArg (· + b (ix2 (0 : Fin 1) e)) (Finset.sum_congr rfl fun k _ => ?_))
  show shapeCast S4096x256 x shapeCasts_S1x4096x256_S4096x256 (ix2 n k) * w (ix2 k e) = _
  rw [shapeCast_1ab_ab_apply]

/-! ## Column-normalised features times values -/

def compV (P V : FVec Ideal S4096x256 .f32) : FVec Ideal S4096x256 .f32 :=
  mulf (divf P (broadcastTo S4096x256
      (addf (shapeCast S1x256 (multiReduction .add [0] S256 P 0x00000000#32 reduces_S4096x256_S256 (.inl rfl) rfl) shapeCasts_S256_S1x256)
        (broadcast S1x256 (Scalar.ofBits .f32 0x358637BD#32)))
      broadcasts_S1x256_S4096x256)) V

theorem compV_apply (P V : FVec Ideal S4096x256 .f32) (n : Fin 4096) (e : Fin 256) :
    compV P V (ix2 n e) = comp (fun n e => P (ix2 n e)) (fun n e => V (ix2 n e)) n e := by
  unfold compV comp
  show Ideal.div (P (ix2 n e)) (broadcastTo S4096x256 _ broadcasts_S1x256_S4096x256 (ix2 n e)) * V (ix2 n e) = _
  rw [broadcastTo_1b_ab_apply]
  show Ideal.div (P (ix2 n e)) (shapeCast S1x256 _ shapeCasts_S256_S1x256 (ix2 (0 : Fin 1) e) + Ideal.ofBits .f32 0x358637BD#32) * V (ix2 n e) = _
  rw [shapeCast_a_1a_apply, colSum_apply]

/-! ## Softmax down the sequence axis -/

def expoV (S : FVec Ideal S4096x256 .f32) : FVec Ideal S4096x256 .f32 :=
  exp (subf S (broadcastTo S4096x256
    (shapeCast S1x256 (multiReduction .maximumf [0] S256 S 0xFF800000#32 reduces_S4096x256_S256 (.inl rfl) rfl) shapeCasts_S256_S1x256)
    broadcasts_S1x256_S4096x256))

theorem expoV_apply (S : FVec Ideal S4096x256 .f32) (n : Fin 4096) (e : Fin 256) :
    expoV S (ix2 n e) = expo (fun n e => S (ix2 n e)) n e := by
  unfold expoV expo colMax
  show Ideal.exp (S (ix2 n e) - broadcastTo S4096x256 _ broadcasts_S1x256_S4096x256 (ix2 n e)) = _
  rw [broadcastTo_1b_ab_apply, shapeCast_a_1a_apply, colMax_apply]

def softV (S : FVec Ideal S4096x256 .f32) : FVec Ideal S4096x256 .f32 :=
  divf (expoV S) (broadcastTo S4096x256
    (shapeCast S1x256 (multiReduction .add [0] S256 (expoV S) 0x00000000#32 reduces_S4096x256_S256 (.inl rfl) rfl) shapeCasts_S256_S1x256)
    broadcasts_S1x256_S4096x256)

theorem softV_apply (S : FVec Ideal S4096x256 .f32) (n : Fin 4096) (e : Fin 256) :
    softV S (ix2 n e) = soft (fun n e => S (ix2 n e)) n e := by
  unfold softV soft
  show Ideal.div (expoV S (ix2 n e)) (broadcastTo S4096x256 _ broadcasts_S1x256_S4096x256 (ix2 n e)) = _
  rw [broadcastTo_1b_ab_apply, shapeCast_a_1a_apply, colSum_apply, expoV_apply]
  exact congrArg (Ideal.div _) (Finset.sum_congr rfl fun k _ => expoV_apply S k e)

/-! ## The first body: the state of a batch -/

/-- The first body's stored value is the product, over the sequence axis, of the key features with the competed values. -/
theorem statePayload_eq (x0 x1 : FVec Ideal S1x4096x256 .f32) (x2 : FVec Ideal S256x256 .f32) (x3 : FVec Ideal S1x256 .f32) :
    Gen.k0_pay1 (F := Ideal) x0 x1 x2 x3
      = shapeCast S1x256x256 (matmul dot_S4096x256_S4096x256_S256x256_0_0_1_1_n_n none
          (truncf .bf16 (phiV x0 x2 x3) bitsLt_bf16_f32)
          (truncf .bf16 (softV (compV (phiV x0 x2 x3) (shapeCast S4096x256 x1 shapeCasts_S1x4096x256_S4096x256))) bitsLt_bf16_f32)
          (constant S256x256 .f32 0x00000000#32)) shapeCasts_S256x256_S1x256x256 := rfl

theorem statePayload_apply (x0 x1 : FVec Ideal S1x4096x256 .f32) (x2 : FVec Ideal S256x256 .f32) (x3 : FVec Ideal S1x256 .f32)
    (u : Fin 1) (d e : Fin 256) :
    Gen.k0_pay1 (F := Ideal) x0 x1 x2 x3 (ix3 u d e)
      = state (fun n d => x0 (ix3 (0 : Fin 1) n d)) (fun n e => x1 (ix3 (0 : Fin 1) n e)) (fun d e => x2 (ix2 d e))
          (fun e => x3 (ix2 (0 : Fin 1) e)) d e := by
  rw [statePayload_eq, shapeCast_ab_1ab_apply, matmul_cols_apply]
  unfold state
  refine Finset.sum_congr rfl fun n _ => ?_
  show phiV x0 x2 x3 (ix2 n d) * softV _ (ix2 n e) = _
  rw [phiV_apply, softV_apply]
  refine congrArg (fun S => _ * soft S n e) (funext fun n' => funext fun e' => ?_)
  rw [compV_apply]
  refine congrArg₂ (fun P V => comp P V n' e') (funext fun a => funext fun b => phiV_apply x0 x2 x3 a b)
    (funext fun a => funext fun b => shapeCast_1ab_ab_apply x1 shapeCasts_S1x4096x256_S4096x256 a b)

/-! ## The second body: a batch of the result -/

/-- The row sums of the query features, as a column. -/
def rowSumV (P : FVec Ideal S4096x256 .f32) : FVec Ideal S4096x1 .f32 :=
  shapeCast S4096x1 (multiReduction .add [1] S4096 P 0x00000000#32 reduces_S4096x256_S4096 (.inl rfl) rfl) shapeCasts_S4096_S4096x1

theorem rowSumV_apply (P : FVec Ideal S4096x256 .f32) (n : Fin 4096) (u : Fin 1) :
    rowSumV P (ix2 n u) = rowSum (fun n e => P (ix2 n e)) n := by
  unfold rowSumV rowSum
  rw [shapeCast_a_a1_apply, rowSum_apply]

theorem outPayload_eq (x0 : FVec Ideal S1x4096x256 .f32) (x1 : FVec Ideal S256x256 .f32) (x2 : FVec Ideal S1x256 .f32)
    (x3 : FVec Ideal S1x256x256 .f32) :
    Gen.k1_pay1 (F := Ideal) x0 x1 x2 x3
      = shapeCast S1x4096x256 (mulf
          (broadcastTo S4096x256 (logistic (rowSumV (phiV x0 x1 x2))) broadcasts_S4096x1_S4096x256)
          (matmul dot_S4096x256_S256x256_S4096x256_1_0_0_1_n_n none
            (truncf .bf16 (divf (phiV x0 x1 x2) (broadcastTo S4096x256
              (addf (rowSumV (phiV x0 x1 x2)) (broadcast S4096x1 (Scalar.ofBits .f32 0x358637BD#32))) broadcasts_S4096x1_S4096x256)) bitsLt_bf16_f32)
            (truncf .bf16 (shapeCast S256x256 x3 shapeCasts_S1x256x256_S256x256) bitsLt_bf16_f32)
            (constant S4096x256 .f32 0x00000000#32))) shapeCasts_S4096x256_S1x4096x256 := rfl

theorem outPayload_apply (x0 : FVec Ideal S1x4096x256 .f32) (x1 : FVec Ideal S256x256 .f32) (x2 : FVec Ideal S1x256 .f32)
    (x3 : FVec Ideal S1x256x256 .f32) (u : Fin 1) (n : Fin 4096) (e : Fin 256) :
    Gen.k1_pay1 (F := Ideal) x0 x1 x2 x3 (ix3 u n e)
      = out (fun n d => x0 (ix3 (0 : Fin 1) n d)) (fun d e => x1 (ix2 d e)) (fun e => x2 (ix2 (0 : Fin 1) e))
          (fun d e => x3 (ix3 (0 : Fin 1) d e)) n e := by
  rw [outPayload_eq, shapeCast_ab_1ab_apply]
  unfold out
  show broadcastTo S4096x256 (logistic (rowSumV (phiV x0 x1 x2))) broadcasts_S4096x1_S4096x256 (ix2 n e)
    * matmul (F := Ideal) dot_S4096x256_S256x256_S4096x256_1_0_0_1_n_n none _ _ (constant S4096x256 .f32 0x00000000#32) (ix2 n e) = _
  rw [broadcastTo_a1_ab_apply, matmul_rows_apply]
  have hrs : rowSumV (phiV x0 x1 x2) (ix2 n (0 : Fin 1))
      = rowSum (phi (fun n d => x0 (ix3 (0 : Fin 1) n d)) (fun d e => x1 (ix2 d e)) (fun e => x2 (ix2 (0 : Fin 1) e))) n := by
    rw [rowSumV_apply]
    exact congrArg (fun P => rowSum P n) (funext fun a => funext fun b => phiV_apply x0 x1 x2 a b)
  refine congrArg₂ (· * ·) ?_ (Finset.sum_congr rfl fun k _ => ?_)
  · show Ideal.logistic (rowSumV (phiV x0 x1 x2) (ix2 n (0 : Fin 1))) = _
    rw [hrs]
  · show Ideal.div (phiV x0 x1 x2 (ix2 n k)) (broadcastTo S4096x256 _ broadcasts_S4096x1_S4096x256 (ix2 n k))
      * shapeCast S256x256 x3 shapeCasts_S1x256x256_S256x256 (ix2 k e) = _
    rw [broadcastTo_a1_ab_apply, shapeCast_1ab_ab_apply, phiV_apply]
    show Ideal.div _ (rowSumV (phiV x0 x1 x2) (ix2 n (0 : Fin 1)) + Ideal.ofBits .f32 0x358637BD#32) * _ = _
    rw [hrs]

end Cert.FlowAttention.Body

end
-- ==== Proof.KernelState.lean ====
import proofs.«114471_j35330400977338_2_alg».proof.Proof.Gen.KernelIdeal.Frame
import proofs.«114471_j35330400977338_2_alg».proof.Proof.Body
import Idealize.ShloMosaic.Lib.Pipeline.Value
import Idealize.ShloMosaic.Lib.StableHlo.Run
import Idealize.ShloMosaic.Lib.Tactic

/-!
  The first region's result, as one function of the launched arrays.

  The first region visits sixteen points, one per batch. At point t it reads batch t of the key and value arrays, the
  whole key weight and the key bias as one row, and writes back, as batch t of the [16, 256, 256] state buffer, the
  state of that batch: the key features against the softmax of the competed values, summed over the sequence. The
  blocks of the sixteen points are the sixteen batches, so together they fill the buffer, and it ends holding the state
  array of the specification, index by index.
-/

set_option maxRecDepth 16384

noncomputable section

namespace Cert.FlowAttention.KernelState

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen
open Cert.FlowAttention

/-- The block index maps of the first region, decided over its sixteen grid points: the key, value and state
    windows move along the batch axis with the point; the weight and the bias row are whole at every point. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

section Blocks

variable (V : (c : Dev nD) → (b : Ref sig .tc) → Buf (Elt Ideal) ((c : Thread nD τ).loc b))

/-- The key block at point `t` is batch `t` of the key array. -/
theorem iblk_K (c : Dev nD) (t : Fin cfg0.N) (ht : t.val < 16) (u : Fin 1) (n : Fin 4096) (d : Fin 256) :
    (iblk0 V c 0 t : Vec Ideal S1x4096x256 .f32) (ix3 u n d)
      = (V c main_arg1 : S16x4096x256.Idx → EReal) (ix3 ⟨t.val, ht⟩ n d) := by
  obtain ⟨e0, e1, e2, -⟩ := idx_facts t
  unfold iblk0
  rw [View.read_apply]
  show V c main_arg1 _ = V c main_arg1 _
  congr 1
  funext a
  apply Fin.ext
  have hu : u.val = 0 := by omega
  match a with
  | ⟨0, _⟩ => show win0_0.index t (0 : Fin 3) * 1 + 1 * u.val = t.val; rw [e0, hu]; omega
  | ⟨1, _⟩ => show win0_0.index t (1 : Fin 3) * 4096 + 1 * n.val = n.val; rw [e1]; omega
  | ⟨2, _⟩ => show win0_0.index t (2 : Fin 3) * 256 + 1 * d.val = d.val; rw [e2]; omega

end Blocks

section Blocks2

variable (V : (c : Dev nD) → (b : Ref sig .tc) → Buf (Elt Ideal) ((c : Thread nD τ).loc b))

/-- The value block at point `t` is batch `t` of the value array. -/
theorem iblk_V (c : Dev nD) (t : Fin cfg0.N) (ht : t.val < 16) (u : Fin 1) (n : Fin 4096) (d : Fin 256) :
    (iblk0 V c 1 t : Vec Ideal S1x4096x256 .f32) (ix3 u n d)
      = (V c main_arg2 : S16x4096x256.Idx → EReal) (ix3 ⟨t.val, ht⟩ n d) := by
  obtain ⟨-, -, -, e0, e1, e2, -⟩ := idx_facts t
  unfold iblk0
  rw [View.read_apply]
  show V c main_arg2 _ = V c main_arg2 _
  congr 1
  funext a
  apply Fin.ext
  have hu : u.val = 0 := by omega
  match a with
  | ⟨0, _⟩ => show win0_1.index t (0 : Fin 3) * 1 + 1 * u.val = t.val; rw [e0, hu]; omega
  | ⟨1, _⟩ => show win0_1.index t (1 : Fin 3) * 4096 + 1 * n.val = n.val; rw [e1]; omega
  | ⟨2, _⟩ => show win0_1.index t (2 : Fin 3) * 256 + 1 * d.val = d.val; rw [e2]; omega

/-- The weight block at every point is the whole weight matrix. -/
theorem iblk_W (c : Dev nD) (t : Fin cfg0.N) (d e : Fin 256) :
    (iblk0 V c 2 t : Vec Ideal S256x256 .f32) (ix2 d e) = (V c main_arg5 : S256x256.Idx → EReal) (ix2 d e) := by
  obtain ⟨-, -, -, -, -, -, e0, e1, -⟩ := idx_facts t
  unfold iblk0
  rw [View.read_apply]
  show V c main_arg5 _ = V c main_arg5 _
  congr 1
  funext a
  apply Fin.ext
  match a with
  | ⟨0, _⟩ => show win0_2.index t (0 : Fin 2) * 256 + 1 * d.val = d.val; rw [e0]; omega
  | ⟨1, _⟩ => show win0_2.index t (1 : Fin 2) * 256 + 1 * e.val = e.val; rw [e1]; omega

/-- The bias block at every point is the whole bias row. -/
theorem iblk_B (c : Dev nD) (t : Fin cfg0.N) (u : Fin 1) (e : Fin 256) :
    (iblk0 V c 3 t : Vec Ideal S1x256 .f32) (ix2 u e) = (V c main_v1 : S1x256.Idx → EReal) (ix2 u e) := by
  obtain ⟨-, -, -, -, -, -, -, -, e0, e1, -⟩ := idx_facts t
  unfold iblk0
  rw [View.read_apply]
  show V c main_v1 _ = V c main_v1 _
  congr 1
  funext a
  apply Fin.ext
  match a with
  | ⟨0, _⟩ => show win0_3.index t (0 : Fin 2) * 1 + 1 * u.val = u.val; rw [e0]; omega
  | ⟨1, _⟩ => show win0_3.index t (1 : Fin 2) * 256 + 1 * e.val = e.val; rw [e1]; omega

end Blocks2

section Entry

variable (m : (ℓ : Loc nD τ sig) → Buf (Elt Ideal) ℓ) (ρ : Dev nD → PrngReg)

/-- No host operation before the first region writes the key array: the region finds it as launched. -/
theorem entry_K (c : Dev nD) : V1 m ρ c main_arg1 = m ((c : Thread nD τ).loc main_arg1) :=
  (StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))).trans rfl

/-- Nor the value array. -/
theorem entry_V (c : Dev nD) : V1 m ρ c main_arg2 = m ((c : Thread nD τ).loc main_arg2) :=
  (StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))).trans rfl

/-- Nor the key weight. -/
theorem entry_W (c : Dev nD) : V1 m ρ c main_arg5 = m ((c : Thread nD τ).loc main_arg5) :=
  (StableHlo.after_of_forall_not_mem (b := Proc.devRef .tc main_arg5) _ _ (List.forall_iff_forall_mem.mp (by
    simp only [hostOps0, List.Forall, StableHlo.reshape_writes, Finset.mem_singleton]
    repeat' apply And.intro
    all_goals exact StableHlo.devRef_ne_of_ne (by decide)))).trans rfl

/-- The bias row the region finds is the key bias reshaped to one row: at (u, e) it is the bias at e. -/
theorem entry_B (c : Dev nD) (u : Fin 1) (e : Fin 256) :
    (V1 m ρ c main_v1 : S1x256.Idx → EReal) (ix2 u e) = (m ((c : Thread nD τ).loc main_arg6) : S256.Idx → EReal) (ix1 e) := by
  have h : (V1 m ρ c main_v1 : S1x256.Idx → EReal)
      = shapeCast S1x256 (m ((c : Thread nD τ).loc main_arg6) : S256.Idx → EReal) shapeCasts_S256_S1x256 := by
    show StableHlo.after hostOps0 (W0 m ρ c) (Proc.devRef .tc main_v1) = _
    after_results
    rfl
  rw [h, shapeCast_a_1a_apply]

end Entry

/-- The payload of the first body, read through blocks that are slabs of batch `tb`, at the local index of an array
    index inside batch `tb`, is the state array there. -/
theorem point_eq (x0 x1 : Vec Ideal S1x4096x256 .f32) (x2 : Vec Ideal S256x256 .f32) (x3 : Vec Ideal S1x256 .f32)
    (K V : S16x4096x256.Idx → EReal) (Wk : S256x256.Idx → EReal) (bk : S256.Idx → EReal) (tb : Fin 16)
    (h0 : ∀ (u : Fin 1) (n : Fin 4096) (d : Fin 256), x0 (ix3 u n d) = K (ix3 tb n d))
    (h1 : ∀ (u : Fin 1) (n : Fin 4096) (d : Fin 256), x1 (ix3 u n d) = V (ix3 tb n d))
    (h2 : ∀ d e : Fin 256, x2 (ix2 d e) = Wk (ix2 d e))
    (h3 : ∀ (u : Fin 1) (e : Fin 256), x3 (ix2 u e) = bk (ix1 e))
    (y : S1x256x256.Idx) (i : S16x256x256.Idx) (hi0 : (i 0).val = tb.val) (hi1 : (i 1).val = (y 1).val)
    (hi2 : (i 2).val = (y 2).val) :
    k0_pay1 (F := Ideal) x0 x1 x2 x3 y = stateArr K V Wk bk i := by
  obtain ⟨u, d, e, rfl⟩ : ∃ (u : Fin 1) (d e : Fin 256), y = ix3 u d e := ⟨y 0, y 1, y 2, eq_ix3 y⟩
  obtain rfl : i = ix3 tb d e := funext fun a => Fin.ext (by
    match a with | ⟨0, _⟩ => exact hi0 | ⟨1, _⟩ => exact hi1 | ⟨2, _⟩ => exact hi2)
  rw [Body.statePayload_apply]
  simp only [h0, h1, h2, h3]
  rfl

/-- The zero offsets of a rank-3 block, however spelt. -/
theorem zeros3 : (![0, 0, 0] : Fin 3 → Nat) = fun _ => 0 := funext fun a => by fin_cases a <;> rfl
/-- The zero offsets of a rank-2 block. -/
theorem zeros2 : (![0, 0] : Fin 2 → Nat) = fun _ => 0 := funext fun a => by fin_cases a <;> rfl

section Final

variable (m : (ℓ : Loc nD τ sig) → Buf (Elt Ideal) ℓ) (ρ : Dev nD → PrngReg)

/-- What point `t` writes back is block `t` of the state array of the launched key, value, weight and bias. -/
theorem flushed_eq (c : Dev nD) (t : Fin cfg0.N) :
    (dat0 (V1 m ρ) c).flushed 4 t
      = ((cfg0.win 4).blk t).view.read (Elt Ideal)
          (stateArr (m ((c : Thread nD τ).loc main_arg1)) (m ((c : Thread nD τ).loc main_arg2))
            (m ((c : Thread nD τ).loc main_arg5)) (m ((c : Thread nD τ).loc main_arg6)) : S16x256x256.Idx → EReal) := by
  have ht : t.val < 16 := lt_of_lt_of_eq t.isLt (show cfg0.N = 16 from N_0)
  obtain ⟨-, -, -, -, -, -, -, -, -, -, e0, e1, e2⟩ := idx_facts t
  show (cfg0.win 4).cut (grid0.coords t) ((dat0 (V1 m ρ) c).after 4 t) = _
  rw [after0_4]
  unfold out0_4
  rw [View.canon_unit_zero zeros3]
  simp only [View.ld_unit_zero (S := S1x4096x256) zeros3, View.ld_unit_zero (S := S256x256) zeros2,
    View.ld_unit_zero (S := S1x256) zeros2]
  funext j
  rw [View.read_apply]
  refine point_eq _ _ _ _ _ _ _ _ ⟨t.val, ht⟩
    (fun u n d => by rw [iblk_K (V1 m ρ) c t ht, entry_K])
    (fun u n d => by rw [iblk_V (V1 m ρ) c t ht, entry_V])
    (fun d e => by rw [iblk_W (V1 m ρ) c t, entry_W])
    (fun u e => by rw [iblk_B (V1 m ρ) c t, entry_B]) j _ ?_ ?_ ?_
  · show win0_4.index t (0 : Fin 3) * 1 + 1 * (j 0).val = t.val
    have hj : (j 0).val < 1 := (j 0).isLt
    rw [e0]; omega
  · show win0_4.index t (1 : Fin 3) * 256 + 1 * (j 1).val = (j 1).val
    rw [e1]; omega
  · show win0_4.index t (2 : Fin 3) * 256 + 1 * (j 2).val = (j 2).val
    rw [e2]; omega

/-- An index of the state array is in point `t`'s block iff each coordinate is in the block's range on its axis. -/
theorem mem_blk (t : Fin cfg0.N) (i : S16x256x256.Idx) :
    i ∈ ((cfg0.win 4).blk t).view.set ↔ ∀ a : Fin 3, win0_4.index t a * S1x256x256.size a ≤ (i a).val
      ∧ (i a).val < win0_4.index t a * S1x256x256.size a + S1x256x256.size a := by
  show i ∈ ((View.whole main_v2).slice (win0_4.rect t)).set ↔ _
  rw [View.set_slice_whole, Rect.mem_set_unit]
  exact Iff.rfl

/-- Every index of the state array lies in the block of the point that is its batch coordinate. -/
theorem cover (i : S16x256x256.Idx) :
    ∃ t : Fin cfg0.N, (cfg0.win 4).flush t = true ∧ i ∈ ((cfg0.win 4).blk t).view.set := by
  have hi0 : (i 0).val < 16 := (i 0).isLt
  have hi1 : (i 1).val < 256 := (i 1).isLt
  have hi2 : (i 2).val < 256 := (i 2).isLt
  refine ⟨⟨(i 0).val, by rw [show cfg0.N = 16 from N_0]; exact hi0⟩, flush0_4 _, ?_⟩
  rw [mem_blk]
  obtain ⟨-, -, -, -, -, -, -, -, -, -, e0, e1, e2⟩ := idx_facts ⟨(i 0).val, by rw [show cfg0.N = 16 from N_0]; exact hi0⟩
  intro a
  match a with
  | ⟨0, _⟩ =>
    show win0_4.index _ (0 : Fin 3) * 1 ≤ (i 0).val ∧ (i 0).val < win0_4.index _ (0 : Fin 3) * 1 + 1
    rw [e0]; show (i 0).val * 1 ≤ (i 0).val ∧ (i 0).val < (i 0).val * 1 + 1; omega
  | ⟨1, _⟩ =>
    show win0_4.index _ (1 : Fin 3) * 256 ≤ (i 1).val ∧ (i 1).val < win0_4.index _ (1 : Fin 3) * 256 + 256
    rw [e1]; omega
  | ⟨2, _⟩ =>
    show win0_4.index _ (2 : Fin 3) * 256 ≤ (i 2).val ∧ (i 2).val < win0_4.index _ (2 : Fin 3) * 256 + 256
    rw [e2]; omega

/-- After the first region the state buffer holds the state array of the launched key, value, weight and bias. -/
theorem state_final (c : Dev nD) :
    (dat0 (V1 m ρ) c).arrAt 4 cfg0.N
      = (stateArr (m ((c : Thread nD τ).loc main_arg1)) (m ((c : Thread nD τ).loc main_arg2))
          (m ((c : Thread nD τ).loc main_arg5)) (m ((c : Thread nD τ).loc main_arg6)) : S16x256x256.Idx → EReal) :=
  (dat0 (V1 m ρ) c).arrAt_eq_of_cover 4 _ (fun t _ => flushed_eq m ρ c t) cover

end Final

end Cert.FlowAttention.KernelState

end
-- ==== Proof.OutValue.lean ====
/-
  The second region, blocks to array: the result [16, 4096, 256].

  The region has sixteen points, one per batch. At point `t` the body reads batch `t` of the queries, the whole query
  weight, the query bias as one row, and batch `t` of the [16, 256, 256] state array; it writes batch `t` of the
  result. Each input block read at coordinates is the array it came from read at the embedded coordinates (a block's
  coordinate is the block index times the block size plus the coordinate inside the block); the body's stored value at
  (n, e) is the specification's result row of those blocks; the sixteen result blocks cover the result array. So the
  result array ends as the specification's `result` of the arrays the region finds — the query arguments as launched,
  the bias row as reshaped before the regions, and the state array as the first region left it.
-/
import proofs.«114471_j35330400977338_2_alg».proof.Proof.Gen.KernelIdeal.Frame
import proofs.«114471_j35330400977338_2_alg».proof.Proof.Body
import Idealize.ShloMosaic.Lib.Pipeline.Value
import Idealize.ShloMosaic.Lib.StableHlo.Run
import Idealize.ShloMosaic.Lib.Tactic

set_option maxRecDepth 16384

noncomputable section

namespace Cert.FlowAttention.OutValue

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.FlowAttention

variable (m : (ℓ : Loc nD τ sig) → Buf (Elt Ideal) ℓ) (ρ : Dev nD → PrngReg)

/-! ## The grid of the second region: one point per batch -/

/-- The batch a grid point of the second region works on. -/
def batch1 (t : Fin cfg1.N) : Fin 16 := ⟨t.val, lt_of_lt_of_eq t.isLt N_1⟩

/-- The printed index maps of the second region, decided over its sixteen points: the query slab, the state block and
    the result block move with the point along the batch axis; the weight and the bias row stay. -/
theorem idx1 : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = t.val ∧ win1_3.index t (1 : Fin 3) = 0 ∧ win1_3.index t (2 : Fin 3) = 0
    ∧ win1_4.index t (0 : Fin 3) = t.val ∧ win1_4.index t (1 : Fin 3) = 0 ∧ win1_4.index t (2 : Fin 3) = 0 :=
  (by decide +kernel : ∀ t : Fin grid1.N, _)

theorem hz3 : (![0, 0, 0] : Fin 3 → Nat) = fun _ => 0 := funext fun a => by fin_cases a <;> rfl
theorem hz2 : (![0, 0] : Fin 2 → Nat) = fun _ => 0 := funext fun a => by fin_cases a <;> rfl

section AnyEntry
variable (V : (c : Dev nD) → (b : Ref sig .tc) → Buf (Elt Ideal) ((c : Thread nD τ).loc b))

/-! ## Each input block of a point, read at coordinates -/

/-- The query slab of point `t` is batch `t` of the query array. -/
theorem qblock_apply (c : Dev nD) (t : Fin cfg1.N) (u : Fin 1) (n : Fin 4096) (d : Fin 256) :
    (iblk1 V c 0 t : Vec Ideal S1x4096x256 .f32) (ix3 u n d)
      = (V c main_arg0 : S16x4096x256.Idx → EReal) (ix3 (batch1 t) n d) := by
  unfold iblk1
  rw [View.read_apply]
  show (V c main_arg0 : S16x4096x256.Idx → EReal) (((cfg1.win 0).blk t).view.emb (ix3 u n d)) = _
  refine congrArg (V c main_arg0 : S16x4096x256.Idx → EReal) (funext fun a => Fin.ext ?_)
  obtain ⟨e0, e1, e2, -⟩ := idx1 t
  have hu : u.val = 0 := by omega
  match a with
  | ⟨0, _⟩ => show win1_0.index t (0 : Fin 3) * 1 + 1 * u.val = t.val; rw [e0, hu]; omega
  | ⟨1, _⟩ => show win1_0.index t (1 : Fin 3) * 4096 + 1 * n.val = n.val; rw [e1]; omega
  | ⟨2, _⟩ => show win1_0.index t (2 : Fin 3) * 256 + 1 * d.val = d.val; rw [e2]; omega

/-- The weight block of every point is the whole weight. -/
theorem wblock_apply (c : Dev nD) (t : Fin cfg1.N) (d e : Fin 256) :
    (iblk1 V c 1 t : Vec Ideal S256x256 .f32) (ix2 d e) = (V c main_arg3 : S256x256.Idx → EReal) (ix2 d e) := by
  unfold iblk1
  rw [View.read_apply]
  show (V c main_arg3 : S256x256.Idx → EReal) (((cfg1.win 1).blk t).view.emb (ix2 d e)) = _
  refine congrArg (V c main_arg3 : S256x256.Idx → EReal) (funext fun a => Fin.ext ?_)
  obtain ⟨-, -, -, e0, e1, -⟩ := idx1 t
  match a with
  | ⟨0, _⟩ => show win1_1.index t (0 : Fin 2) * 256 + 1 * d.val = d.val; rw [e0]; omega
  | ⟨1, _⟩ => show win1_1.index t (1 : Fin 2) * 256 + 1 * e.val = e.val; rw [e1]; omega

/-- The bias block of every point is the whole bias row. -/
theorem bblock_apply (c : Dev nD) (t : Fin cfg1.N) (u : Fin 1) (e : Fin 256) :
    (iblk1 V c 2 t : Vec Ideal S1x256 .f32) (ix2 u e) = (V c main_v0 : S1x256.Idx → EReal) (ix2 u e) := by
  unfold iblk1
  rw [View.read_apply]
  show (V c main_v0 : S1x256.Idx → EReal) (((cfg1.win 2).blk t).view.emb (ix2 u e)) = _
  refine congrArg (V c main_v0 : S1x256.Idx → EReal) (funext fun a => Fin.ext ?_)
  obtain ⟨-, -, -, -, -, e0, e1, -⟩ := idx1 t
  match a with
  | ⟨0, _⟩ => show win1_2.index t (0 : Fin 2) * 1 + 1 * u.val = u.val; rw [e0]; omega
  | ⟨1, _⟩ => show win1_2.index t (1 : Fin 2) * 256 + 1 * e.val = e.val; rw [e1]; omega

/-- The state block of point `t` is batch `t` of the state array. -/
theorem sblock_apply (c : Dev nD) (t : Fin cfg1.N) (u : Fin 1) (d e : Fin 256) :
    (iblk1 V c 3 t : Vec Ideal S1x256x256 .f32) (ix3 u d e)
      = (V c main_v2 : S16x256x256.Idx → EReal) (ix3 (batch1 t) d e) := by
  unfold iblk1
  rw [View.read_apply]
  show (V c main_v2 : S16x256x256.Idx → EReal) (((cfg1.win 3).blk t).view.emb (ix3 u d e)) = _
  refine congrArg (V c main_v2 : S16x256x256.Idx → EReal) (funext fun a => Fin.ext ?_)
  obtain ⟨-, -, -, -, -, -, -, e0, e1, e2, -⟩ := idx1 t
  have hu : u.val = 0 := by omega
  match a with
  | ⟨0, _⟩ => show win1_3.index t (0 : Fin 3) * 1 + 1 * u.val = t.val; rw [e0, hu]; omega
  | ⟨1, _⟩ => show win1_3.index t (1 : Fin 3) * 256 + 1 * d.val = d.val; rw [e1]; omega
  | ⟨2, _⟩ => show win1_3.index t (2 : Fin 3) * 256 + 1 * e.val = e.val; rw [e2]; omega

/-- Where the result block of point `t` sits in the result array: batch `t`. -/
theorem oblock_emb (t : Fin cfg1.N) (u : Fin 1) (n : Fin 4096) (e : Fin 256) :
    (((cfg1.win 4).blk t).view.emb (ix3 u n e) : S16x4096x256.Idx) = ix3 (batch1 t) n e := by
  refine funext fun a => Fin.ext ?_
  obtain ⟨-, -, -, -, -, -, -, -, -, -, e0, e1, e2⟩ := idx1 t
  have hu : u.val = 0 := by omega
  match a with
  | ⟨0, _⟩ => show win1_4.index t (0 : Fin 3) * 1 + 1 * u.val = t.val; rw [e0, hu]; omega
  | ⟨1, _⟩ => show win1_4.index t (1 : Fin 3) * 4096 + 1 * n.val = n.val; rw [e1]; omega
  | ⟨2, _⟩ => show win1_4.index t (2 : Fin 3) * 256 + 1 * e.val = e.val; rw [e2]; omega

/-! ## What a point writes back -/

/-- WHAT POINT `t` WRITES BACK is block `t` of any array `G` that, on batch `t`, is the specification's result row of
    the arrays the region finds. -/
theorem flushed_result (c : Dev nD) (t : Fin cfg1.N) (G : S16x4096x256.Idx → EReal)
    (hG : ∀ (n : Fin 4096) (e : Fin 256), G (ix3 (batch1 t) n e)
      = out (fun n d => (V c main_arg0 : S16x4096x256.Idx → EReal) (ix3 (batch1 t) n d))
          (fun d e => (V c main_arg3 : S256x256.Idx → EReal) (ix2 d e))
          (fun e => (V c main_v0 : S1x256.Idx → EReal) (ix2 (0 : Fin 1) e))
          (fun d e => (V c main_v2 : S16x256x256.Idx → EReal) (ix3 (batch1 t) d e)) n e) :
    (dat1 V c).flushed 4 t = ((cfg1.win 4).blk t).view.read (Elt Ideal) G := by
  show (cfg1.win 4).cut (grid1.coords t) ((dat1 V c).after 4 t) = _
  rw [after1_4]
  unfold out1_4
  rw [View.canon_unit_zero hz3]
  simp only [View.ld_unit_zero (S := S1x4096x256) hz3, View.ld_unit_zero (S := S256x256) hz2,
    View.ld_unit_zero (S := S1x256) hz2, View.ld_unit_zero (S := S1x256x256) hz3]
  have key : ∀ j : S1x4096x256.Idx,
      k1_pay1 (F := Ideal) (iblk1 V c 0 t) (iblk1 V c 1 t) (iblk1 V c 2 t) (iblk1 V c 3 t) j
        = G (((cfg1.win 4).blk t).view.emb j) := by
    intro j
    obtain ⟨u, n, e, rfl⟩ : ∃ (u : Fin 1) (n : Fin 4096) (e : Fin 256), j = ix3 u n e := ⟨j 0, j 1, j 2, eq_ix3 j⟩
    refine (Body.outPayload_apply (iblk1 V c 0 t) (iblk1 V c 1 t) (iblk1 V c 2 t) (iblk1 V c 3 t) u n e).trans ?_
    rw [oblock_emb t u n e, hG n e]
    have hA : (fun (n : Fin 4096) (d : Fin 256) => (iblk1 V c 0 t : Vec Ideal S1x4096x256 .f32) (ix3 (0 : Fin 1) n d))
        = fun n d => (V c main_arg0 : S16x4096x256.Idx → EReal) (ix3 (batch1 t) n d) :=
      funext fun n => funext fun d => qblock_apply V c t 0 n d
    have hB : (fun (d e : Fin 256) => (iblk1 V c 1 t : Vec Ideal S256x256 .f32) (ix2 d e))
        = fun d e => (V c main_arg3 : S256x256.Idx → EReal) (ix2 d e) :=
      funext fun d => funext fun e => wblock_apply V c t d e
    have hC : (fun (e : Fin 256) => (iblk1 V c 2 t : Vec Ideal S1x256 .f32) (ix2 (0 : Fin 1) e))
        = fun e => (V c main_v0 : S1x256.Idx → EReal) (ix2 (0 : Fin 1) e) :=
      funext fun e => bblock_apply V c t 0 e
    have hD : (fun (d e : Fin 256) => (iblk1 V c 3 t : Vec Ideal S1x256x256 .f32) (ix3 (0 : Fin 1) d e))
        = fun d e => (V c main_v2 : S16x256x256.Idx → EReal) (ix3 (batch1 t) d e) :=
      funext fun d => funext fun e => sblock_apply V c t 0 d e
    exact congrArg (fun f => f n e) (congr (congr (congr (congrArg out hA) hB) hC) hD)
  exact funext fun j => key j

end AnyEntry

/-! ## The result blocks cover the result array -/

/-- An index of the result array is in point `t`'s block iff each coordinate is in the block's range on its axis. -/
theorem mem_oblock (t : Fin cfg1.N) (i : S16x4096x256.Idx) :
    i ∈ ((cfg1.win 4).blk t).view.set ↔ ∀ a : Fin 3, win1_4.index t a * S1x4096x256.size a ≤ (i a).val
      ∧ (i a).val < win1_4.index t a * S1x4096x256.size a + S1x4096x256.size a := by
  show i ∈ ((View.whole main_v3).slice (win1_4.rect t)).set ↔ _
  rw [View.set_slice_whole, Rect.mem_set_unit]
  exact Iff.rfl

/-- Every index of the result array lies in the block of the point of its batch. -/
theorem cover_result (i : S16x4096x256.Idx) :
    ∃ t : Fin cfg1.N, (cfg1.win 4).flush t = true ∧ i ∈ ((cfg1.win 4).blk t).view.set := by
  have h0 : (i 0).val < 16 := (i 0).isLt
  have h1 : (i 1).val < 4096 := (i 1).isLt
  have h2 : (i 2).val < 256 := (i 2).isLt
  have hN : cfg1.N = 16 := N_1
  obtain ⟨t, ht⟩ : ∃ t : Fin cfg1.N, t.val = (i 0).val := ⟨⟨(i 0).val, by rw [hN]; exact h0⟩, rfl⟩
  refine ⟨t, flush1_4 t, ?_⟩
  rw [mem_oblock]
  obtain ⟨-, -, -, -, -, -, -, -, -, -, e0, e1, e2⟩ := idx1 t
  intro a
  match a with
  | ⟨0, _⟩ => show win1_4.index t (0 : Fin 3) * 1 ≤ (i 0).val ∧ (i 0).val < win1_4.index t (0 : Fin 3) * 1 + 1; rw [e0]; omega
  | ⟨1, _⟩ => show win1_4.index t (1 : Fin 3) * 4096 ≤ (i 1).val ∧ (i 1).val < win1_4.index t (1 : Fin 3) * 4096 + 4096; rw [e1]; omega
  | ⟨2, _⟩ => show win1_4.index t (2 : Fin 3) * 256 ≤ (i 2).val ∧ (i 2).val < win1_4.index t (2 : Fin 3) * 256 + 256; rw [e2]; omega

/-! ## The arrays the second region finds -/

/-- The query array is as launched: neither the reshapes nor the first region write it. -/
theorem entry_query (c : Dev nD) : V2 m ρ c main_arg0 = m ((c : Thread nD τ).loc main_arg0) :=
  ((W3_arr m ρ c 0).trans (((dat1 (V2 m ρ) c).arrAt_in 0 rfl _).trans (A_eq1 (V2 m ρ) c 0))).symm.trans (W3_main_arg0 m ρ c)

/-- The query weight is as launched. -/
theorem entry_weight (c : Dev nD) : V2 m ρ c main_arg3 = m ((c : Thread nD τ).loc main_arg3) :=
  ((W3_arr m ρ c 1).trans (((dat1 (V2 m ρ) c).arrAt_in 1 rfl _).trans (A_eq1 (V2 m ρ) c 1))).symm.trans (W3_main_arg3 m ρ c)

/-- The bias row the region reads is the query bias, reshaped to one row before the regions. -/
theorem entry_bias (c : Dev nD) (u : Fin 1) (e : Fin 256) :
    (V2 m ρ c main_v0 : S1x256.Idx → EReal) (ix2 u e) = (m ((c : Thread nD τ).loc main_arg4) : S256.Idx → EReal) (ix1 e) := by
  have h1 : V2 m ρ c main_v0 = W1 m ρ c (Proc.devRef .tc main_v0) := W2_of_ne m ρ c main_v0 (by decide)
  have h2 : (W1 m ρ c (Proc.devRef .tc main_v0) : S1x256.Idx → EReal)
      = shapeCast S1x256 (m ((c : Thread nD τ).loc main_arg4) : S256.Idx → EReal) shapeCasts_S256_S1x256 := by
    show StableHlo.after hostOps0 (W0 m ρ c) (Proc.devRef .tc main_v0) = _
    after_results
    rfl
  rw [h1, h2, shapeCast_a_1a_apply]

/-- The state array the region reads is what the first region's write-backs left. -/
theorem entry_state (c : Dev nD) : V2 m ρ c main_v2 = (dat0 (V1 m ρ) c).arrAt 4 cfg0.N := W2_arr m ρ c 4

/-! ## The result array after the second region -/

/-- Given the state array the first region leaves, the second region leaves THE RESULT of the launched arguments. -/
theorem result_final (c : Dev nD)
    (hS : (dat0 (V1 m ρ) c).arrAt 4 cfg0.N
      = stateArr (m ((c : Thread nD τ).loc main_arg1)) (m ((c : Thread nD τ).loc main_arg2))
          (m ((c : Thread nD τ).loc main_arg5)) (m ((c : Thread nD τ).loc main_arg6))) :
    (dat1 (V2 m ρ) c).arrAt 4 cfg1.N
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (dat1 (V2 m ρ) c).arrAt_eq_of_cover 4 _ (fun t _ => flushed_result (V2 m ρ) c t _ fun n e => ?_) cover_result
  rw [entry_query m ρ c, entry_weight m ρ c, entry_state m ρ c, hS]
  unfold result
  refine congrArg (fun β => out _ _ β _ n e) (funext fun e' => (entry_bias m ρ c 0 e').symm)

end Cert.FlowAttention.OutValue

end
-- ==== Proof.RefValue.lean ====
import proofs.«114471_j35330400977338_2_alg».proof.Proof.Gen.ReferenceIdeal.Read
import proofs.«114471_j35330400977338_2_alg».proof.Proof.Spec
import Idealize.ShloMosaic.Lib.ValueIdx
import Idealize.ShloMosaic.Lib.Pipeline.Value
import Idealize.ShloMosaic.PureOps.Ideal.Laws
import Idealize.ShloMosaic.PureOps.Reduce

/-!
  The reference computation, read index by index, is the flow-attention function of the specification.

  Each stage of the reference is read at an index (b, n, e) of explicit coordinates, bottom-up: the two feature maps
  (a linear layer followed by 1 / (1 + exp (−z)), which is the logistic function once the word 0x3F800000 is read as 1),
  the column sums and the column-normalised features times the values, the column maxima (a fold of `max` from −∞, which
  a further maximum with −∞ leaves unchanged), the shifted exponentials and their column sums, the softmax, the
  [256, 256] state of each batch, the row sums, the row-normalised query features, the gate, and the final product.
  A zero initial value of a sum is dropped by `0 + x = x`; the stabiliser ε and −∞ stay as their words throughout.
-/

noncomputable section

namespace Cert.FlowAttention.Reference

open Idealize.ShloMosaic Idealize.ShloMosaic.ValueIdx Cert.ReferenceIdeal Cert.ReferenceIdeal.Read Cert.FlowAttention

/-- The [16, 4096, 256] arrays, the weight matrices and the bias rows at the extended reals. -/
abbrev A3 : Type := (⟨S16x4096x256, .f32⟩ : BufTy).Contents (Elt Ideal)
abbrev A2 : Type := (⟨S256x256, .f32⟩ : BufTy).Contents (Elt Ideal)
abbrev A1 : Type := (⟨S256, .f32⟩ : BufTy).Contents (Elt Ideal)

/-- The word 0x3F800000 is the number one. -/
theorem one_word : Ideal.ofBits .f32 0x3F800000#32 = 1 := by
  simp [Ideal.ofBits, Ideal.ieee, -EReal.coe_mul]; norm_num

/-- One over one plus the exponential of the negated argument, with both ones given as words, is the logistic function. -/
theorem logistic_spelled (z : EReal) :
    Ideal.div (Ideal.ofBits .f32 0x3F800000#32) (Ideal.ofBits .f32 0x3F800000#32 + Ideal.exp (-z)) = Ideal.logistic z := by
  rw [one_word]; rfl

/-- The query features: a linear layer and the logistic function, at one index. -/
theorem phiQ_eq (x0 : A3) (x3 : A2) (x4 : A1) (b : Fin 16) (n : Fin 4096) (e : Fin 256) :
    val_main_v9 (F := Ideal) x0 x3 x4 (ix3 b n e)
      = phi (fun n d => x0 (ix3 b n d)) (fun d e => x3 (ix2 d e)) (fun e => x4 (ix1 e)) n e := by
  rw [val_main_v9_apply, val_main_v8_apply, val_main_cst_0_apply, val_main_v7_apply, val_main_v6_apply,
    val_main_cst_apply, val_main_v5_apply, val_main_v4_apply, val_main_v3_apply, val_main_v0_apply,
    val_main_v2_apply, val_main_v1_apply]
  have el : ∀ k : Fin 256, lidx_main_v0 (ix3 b n e) k = ix3 b n k := fun k => funext fun a => Fin.ext (by
    match a with | ⟨0, _⟩ => rfl | ⟨1, _⟩ => rfl | ⟨2, _⟩ => rfl)
  have er : ∀ k : Fin 256, ridx_main_v0 (ix3 b n e) k = ix2 k e := fun k => funext fun a => Fin.ext (by
    match a with | ⟨0, _⟩ => rfl | ⟨1, _⟩ => rfl)
  have eb : idx_main_v1 (idx_main_v2 (ix3 b n e)) = ix1 e := funext fun a => Fin.ext (by
    match a with | ⟨0, _⟩ => rfl)
  simp only [el, er, eb]
  exact logistic_spelled _

/-- The key features, at one index. -/
theorem phiK_eq (x1 : A3) (x5 : A2) (x6 : A1) (b : Fin 16) (n : Fin 4096) (e : Fin 256) :
    val_main_v19 (F := Ideal) x1 x5 x6 (ix3 b n e)
      = phi (fun n d => x1 (ix3 b n d)) (fun d e => x5 (ix2 d e)) (fun e => x6 (ix1 e)) n e := by
  rw [val_main_v19_apply, val_main_v18_apply, val_main_cst_2_apply, val_main_v17_apply, val_main_v16_apply,
    val_main_cst_1_apply, val_main_v15_apply, val_main_v14_apply, val_main_v13_apply, val_main_v10_apply,
    val_main_v12_apply, val_main_v11_apply]
  have el : ∀ k : Fin 256, lidx_main_v10 (ix3 b n e) k = ix3 b n k := fun k => funext fun a => Fin.ext (by
    match a with | ⟨0, _⟩ => rfl | ⟨1, _⟩ => rfl | ⟨2, _⟩ => rfl)
  have er : ∀ k : Fin 256, ridx_main_v10 (ix3 b n e) k = ix2 k e := fun k => funext fun a => Fin.ext (by
    match a with | ⟨0, _⟩ => rfl | ⟨1, _⟩ => rfl)
  have eb : idx_main_v11 (idx_main_v12 (ix3 b n e)) = ix1 e := funext fun a => Fin.ext (by
    match a with | ⟨0, _⟩ => rfl)
  simp only [el, er, eb]
  exact logistic_spelled _

/-- The query features of batch `b`. -/
abbrev PQ (x0 : A3) (x3 : A2) (x4 : A1) (b : Fin 16) : Fin 4096 → Fin 256 → EReal :=
  phi (fun n d => x0 (ix3 b n d)) (fun d e => x3 (ix2 d e)) (fun e => x4 (ix1 e))
/-- The key features of batch `b`. -/
abbrev PK (x1 : A3) (x5 : A2) (x6 : A1) (b : Fin 16) : Fin 4096 → Fin 256 → EReal :=
  phi (fun n d => x1 (ix3 b n d)) (fun d e => x5 (ix2 d e)) (fun e => x6 (ix1 e))
/-- The values of batch `b`. -/
abbrev VV (x2 : A3) (b : Fin 16) : Fin 4096 → Fin 256 → EReal := fun n e => x2 (ix3 b n e)

/-- The column sums of the key features. -/
theorem colSum_eq (x1 : A3) (x5 : A2) (x6 : A1) (b : Fin 16) (e : Fin 256) :
    val_main_v20 (F := Ideal) x1 x5 x6 (ix2 b e) = ∑ k : Fin 4096, PK x1 x5 x6 b k e := by
  rw [val_main_v20_apply]
  have ek : ∀ k : Fin 4096, idx_main_v20 (ix2 b e) k = ix3 b k e := fun k => funext fun a => Fin.ext (by
    match a with | ⟨0, _⟩ => rfl | ⟨1, _⟩ => rfl | ⟨2, _⟩ => rfl)
  simp only [ek, phiK_eq, val_main_cst_3_apply, Ideal.ofBits_def, Ideal.ofBits_zero_f32, zero_add]

/-- The competed values: the column-normalised key features times the values. -/
theorem comp_eq (x1 x2 : A3) (x5 : A2) (x6 : A1) (b : Fin 16) (n : Fin 4096) (e : Fin 256) :
    val_main_v32 (F := Ideal) x1 x2 x5 x6 (ix3 b n e) = comp (PK x1 x5 x6 b) (VV x2 b) n e := by
  rw [val_main_v32_apply, val_main_v25_apply, val_main_v24_apply, val_main_v23_apply, val_main_v21_apply,
    val_main_v22_apply, val_main_cst_4_apply, phiK_eq]
  have ej : idx_main_v21 (idx_main_v24 (ix3 b n e)) = ix2 b e := funext fun a => Fin.ext (by
    match a with | ⟨0, _⟩ => rfl | ⟨1, _⟩ => rfl)
  rw [ej, colSum_eq]
  rfl

/-- Dropping axis 1 of a [16, 4096, 256] array leaves a [16, 256] one. -/
theorem red1 : S16x4096x256.Reduces [1] S16x256 := by decide

/-- The index (b, e) with the coordinate `k` put back on the dropped axis is (b, k, e). -/
theorem lift1 (b : Fin 16) (e : Fin 256) (k : Fin 4096) : red1.lift (ix2 b e) k = ix3 b k e :=
  funext fun a => Fin.ext (by match a with | ⟨0, _⟩ => rfl | ⟨1, _⟩ => rfl | ⟨2, _⟩ => rfl)

/-- The column maxima: the maximum-reduction is the fold of `max` from −∞ down the column, and the further
    maximum with −∞ changes nothing, since that fold already lies above −∞. -/
theorem colMax_eq (x1 x2 : A3) (x5 : A2) (x6 : A1) (b : Fin 16) (e : Fin 256) :
    val_main_v35 (F := Ideal) x1 x2 x5 x6 (ix2 b e) = colMax (comp (PK x1 x5 x6 b) (VV x2 b)) e := by
  rw [val_main_v35_apply, val_main_v34_apply, val_main_cst_8_apply]
  have h33 : val_main_v33 (F := Ideal) x1 x2 x5 x6 (ix2 b e) = colMax (comp (PK x1 x5 x6 b) (VV x2 b)) e := by
    unfold val_main_v33
    rw [Host.reduce_eq_fold_single _ _ _ _ red1]
    show (Finset.univ : Finset (Fin 4096)).fold max negInf _ = _
    unfold colMax
    refine Finset.fold_congr fun k _ => ?_
    show val_main_v32 (F := Ideal) x1 x2 x5 x6 (red1.lift (ix2 b e) k) = _
    rw [lift1, comp_eq]
  rw [h33]
  exact max_eq_right ((Finset.le_fold_max _).mpr (Or.inl le_rfl))

/-- The shifted exponentials. -/
theorem expo_eq (x1 x2 : A3) (x5 : A2) (x6 : A1) (b : Fin 16) (n : Fin 4096) (e : Fin 256) :
    val_main_v39 (F := Ideal) x1 x2 x5 x6 (ix3 b n e) = expo (comp (PK x1 x5 x6 b) (VV x2 b)) n e := by
  rw [val_main_v39_apply, val_main_v38_apply, val_main_v37_apply, val_main_v36_apply, comp_eq]
  have ej : idx_main_v36 (idx_main_v37 (ix3 b n e)) = ix2 b e := funext fun a => Fin.ext (by
    match a with | ⟨0, _⟩ => rfl | ⟨1, _⟩ => rfl)
  rw [ej, colMax_eq]
  rfl

/-- The column sums of the shifted exponentials. -/
theorem expoSum_eq (x1 x2 : A3) (x5 : A2) (x6 : A1) (b : Fin 16) (e : Fin 256) :
    val_main_v40 (F := Ideal) x1 x2 x5 x6 (ix2 b e)
      = ∑ k : Fin 4096, expo (comp (PK x1 x5 x6 b) (VV x2 b)) k e := by
  rw [val_main_v40_apply]
  have ek : ∀ k : Fin 4096, idx_main_v40 (ix2 b e) k = ix3 b k e := fun k => funext fun a => Fin.ext (by
    match a with | ⟨0, _⟩ => rfl | ⟨1, _⟩ => rfl | ⟨2, _⟩ => rfl)
  simp only [ek, expo_eq, val_main_cst_9_apply, Ideal.ofBits_def, Ideal.ofBits_zero_f32, zero_add]

/-- The softmax down each column of the competed values. -/
theorem soft_eq (x1 x2 : A3) (x5 : A2) (x6 : A1) (b : Fin 16) (n : Fin 4096) (e : Fin 256) :
    val_main_v43 (F := Ideal) x1 x2 x5 x6 (ix3 b n e) = soft (comp (PK x1 x5 x6 b) (VV x2 b)) n e := by
  rw [val_main_v43_apply, val_main_v42_apply, val_main_v41_apply, expo_eq]
  have ej : idx_main_v41 (idx_main_v42 (ix3 b n e)) = ix2 b e := funext fun a => Fin.ext (by
    match a with | ⟨0, _⟩ => rfl | ⟨1, _⟩ => rfl)
  rw [ej, expoSum_eq]
  rfl

/-- The state of each batch: the first contraction, over the sequence axis. -/
theorem state_eq (x1 x2 : A3) (x5 : A2) (x6 : A1) (b : Fin 16) (d e : Fin 256) :
    val_main_v44 (F := Ideal) x1 x2 x5 x6 (ix3 b d e) = stateArr x1 x2 x5 x6 (ix3 b d e) := by
  rw [val_main_v44_apply]
  have el : ∀ k : Fin 4096, lidx_main_v44 (ix3 b d e) k = ix3 b k d := fun k => funext fun a => Fin.ext (by
    match a with | ⟨0, _⟩ => rfl | ⟨1, _⟩ => rfl | ⟨2, _⟩ => rfl)
  have er : ∀ k : Fin 4096, ridx_main_v44 (ix3 b d e) k = ix3 b k e := fun k => funext fun a => Fin.ext (by
    match a with | ⟨0, _⟩ => rfl | ⟨1, _⟩ => rfl | ⟨2, _⟩ => rfl)
  simp only [el, er, phiK_eq, soft_eq]
  rfl

/-- The row sums of the query features (the first of the reference's two copies). -/
theorem rowSum_eq (x0 : A3) (x3 : A2) (x4 : A1) (b : Fin 16) (n : Fin 4096) :
    val_main_v26 (F := Ideal) x0 x3 x4 (ix2 b n) = rowSum (PQ x0 x3 x4 b) n := by
  rw [val_main_v26_apply]
  have ek : ∀ k : Fin 256, idx_main_v26 (ix2 b n) k = ix3 b n k := fun k => funext fun a => Fin.ext (by
    match a with | ⟨0, _⟩ => rfl | ⟨1, _⟩ => rfl | ⟨2, _⟩ => rfl)
  simp only [ek, phiQ_eq, val_main_cst_5_apply, Ideal.ofBits_def, Ideal.ofBits_zero_f32, zero_add]
  rfl

/-- The row sums again (the second copy, which feeds the gate). -/
theorem rowSum_eq' (x0 : A3) (x3 : A2) (x4 : A1) (b : Fin 16) (n : Fin 4096) :
    val_main_v46 (F := Ideal) x0 x3 x4 (ix2 b n) = rowSum (PQ x0 x3 x4 b) n := by
  rw [val_main_v46_apply]
  have ek : ∀ k : Fin 256, idx_main_v46 (ix2 b n) k = ix3 b n k := fun k => funext fun a => Fin.ext (by
    match a with | ⟨0, _⟩ => rfl | ⟨1, _⟩ => rfl | ⟨2, _⟩ => rfl)
  simp only [ek, phiQ_eq, val_main_cst_10_apply, Ideal.ofBits_def, Ideal.ofBits_zero_f32, zero_add]
  rfl

/-- The row-normalised query features. -/
theorem norm_eq (x0 : A3) (x3 : A2) (x4 : A1) (b : Fin 16) (n : Fin 4096) (d : Fin 256) :
    val_main_v31 (F := Ideal) x0 x3 x4 (ix3 b n d)
      = Ideal.div (PQ x0 x3 x4 b n d) (rowSum (PQ x0 x3 x4 b) n + eps) := by
  rw [val_main_v31_apply, val_main_v30_apply, val_main_v29_apply, val_main_v27_apply, val_main_v28_apply,
    val_main_cst_6_apply, phiQ_eq]
  have ej : idx_main_v27 (idx_main_v30 (ix3 b n d)) = ix2 b n := funext fun a => Fin.ext (by
    match a with | ⟨0, _⟩ => rfl | ⟨1, _⟩ => rfl)
  rw [ej, rowSum_eq]
  rfl

/-- The gate: the logistic function of the row sum, spelled out once more by the reference. -/
theorem gate_eq (x0 : A3) (x3 : A2) (x4 : A1) (b : Fin 16) (n : Fin 4096) (u : Fin 1) :
    val_main_v53 (F := Ideal) x0 x3 x4 (ix3 b n u) = Ideal.logistic (rowSum (PQ x0 x3 x4 b) n) := by
  rw [val_main_v53_apply, val_main_v52_apply, val_main_cst_12_apply, val_main_v51_apply, val_main_v50_apply,
    val_main_cst_11_apply, val_main_v49_apply, val_main_v48_apply, val_main_v47_apply]
  have ej : idx_main_v47 (ix3 b n u) = ix2 b n := funext fun a => Fin.ext (by
    match a with | ⟨0, _⟩ => rfl | ⟨1, _⟩ => rfl)
  rw [ej, rowSum_eq']
  exact logistic_spelled _

/-- The reference's result is the specification's, index by index. -/
theorem result_eq (x0 x1 x2 : A3) (x3 : A2) (x4 : A1) (x5 : A2) (x6 : A1) :
    val_main_v55 (F := Ideal) x0 x1 x2 x3 x4 x5 x6 = result x0 x1 x2 x3 x4 x5 x6 := by
  funext i
  obtain ⟨b, n, e, rfl⟩ : ∃ (b : Fin 16) (n : Fin 4096) (e : Fin 256), i = ix3 b n e := ⟨i 0, i 1, i 2, eq_ix3 i⟩
  rw [val_main_v55_apply, val_main_v54_apply, val_main_v45_apply]
  have eg : idx_main_v54 (ix3 b n e) = ix3 b n (0 : Fin 1) := funext fun a => Fin.ext (by
    match a with | ⟨0, _⟩ => rfl | ⟨1, _⟩ => rfl | ⟨2, _⟩ => rfl)
  have el : ∀ k : Fin 256, lidx_main_v45 (ix3 b n e) k = ix3 b n k := fun k => funext fun a => Fin.ext (by
    match a with | ⟨0, _⟩ => rfl | ⟨1, _⟩ => rfl | ⟨2, _⟩ => rfl)
  have er : ∀ k : Fin 256, ridx_main_v45 (ix3 b n e) k = ix3 b k e := fun k => funext fun a => Fin.ext (by
    match a with | ⟨0, _⟩ => rfl | ⟨1, _⟩ => rfl | ⟨2, _⟩ => rfl)
  rw [eg, gate_eq]
  simp only [el, er, norm_eq, state_eq]
  rfl

end Cert.FlowAttention.Reference

end
-- ==== Proof.lean ====
/-
  Flow attention with sigmoid feature maps: a two-stage kernel against its jnp reference, equal on the extended reals.

  For each of 16 batches, with K, V, Q slabs of shape [4096, 256], weights [256, 256] and bias rows [256]:
    φ_K = logistic (K · Wk + bk),   φ_Q = logistic (Q · Wq + bq)
    state = φ_Kᵀ · softmax over the sequence of ( φ_K / (column sums of φ_K + ε) ∘ V )          a [256, 256] matrix
    result = logistic (row sums of φ_Q) ∘ ( φ_Q / (row sums of φ_Q + ε) ) · state                  a [4096, 256] slab
  The kernel computes the state array in a first region and the result in a second, one grid point per batch in each;
  the reference computes the same quantities with whole-array operations. On the extended reals a change of float
  format is the identity, a matrix product is its sum of products, the logistic function IS one over one plus the
  exponential of the negated argument, and a maximum taken again against −∞ is unchanged — so the two programs are
  one function of the seven argument arrays, index by index (`Cert.FlowAttention.result`), and no law that needs
  finite inputs is used: the precondition is never opened.

  The kernel side: its run with the result array named (KernelRun), the two bodies' stored values read at an index
  (Ops, Body), each region's blocks assembled into its array (KernelState, OutValue). The reference side: its host
  operations read one at a time against the same specification (RefValue). The idealization rewrote no operation, so
  `preserves` is trivial; the three frames are the programs' runs with the result dropped.
-/
import proofs.«114471_j35330400977338_2_alg».proof.Defs
import proofs.«114471_j35330400977338_2_alg».proof.Proof.Gen.Kernel
import proofs.«114471_j35330400977338_2_alg».proof.Proof.Gen.Kernel.Skeleton
import proofs.«114471_j35330400977338_2_alg».proof.Proof.Gen.Kernel.Launch
import proofs.«114471_j35330400977338_2_alg».proof.Proof.Gen.Kernel.Points
import proofs.«114471_j35330400977338_2_alg».proof.Proof.Gen.Kernel.Frame
import proofs.«114471_j35330400977338_2_alg».proof.Proof.Gen.KernelIdeal
import proofs.«114471_j35330400977338_2_alg».proof.Proof.Gen.KernelIdeal.Skeleton
import proofs.«114471_j35330400977338_2_alg».proof.Proof.Gen.KernelIdeal.Launch
import proofs.«114471_j35330400977338_2_alg».proof.Proof.Gen.KernelIdeal.Points
import proofs.«114471_j35330400977338_2_alg».proof.Proof.Gen.KernelIdeal.Frame
import proofs.«114471_j35330400977338_2_alg».proof.Proof.Gen.ReferenceIdeal
import proofs.«114471_j35330400977338_2_alg».proof.Proof.Gen.Pre_finite_inputs
import proofs.«114471_j35330400977338_2_alg».proof.Proof.Gen.ReferenceIdeal.Run
import proofs.«114471_j35330400977338_2_alg».proof.Proof.Gen.ReferenceIdeal.Read
import proofs.«114471_j35330400977338_2_alg».proof.Proof.KernelRun
import proofs.«114471_j35330400977338_2_alg».proof.Proof.KernelState
import proofs.«114471_j35330400977338_2_alg».proof.Proof.OutValue
import proofs.«114471_j35330400977338_2_alg».proof.Proof.RefValue
import Idealize.ShloMosaic.Adequacy
import Idealize.ShloMosaic.Init

noncomputable section

namespace Cert.Proof

open Idealize.ShloMosaic Idealize.SL.Sem

/-- The three programs run: every weakly fair execution terminates, nothing faults, the arguments end unchanged. -/
theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation: the idealized kernel is the kernel's own text read on the extended reals. -/
theorem preserves : Cert.preserves_Kernel_KernelIdeal := trivial

/-- The idealized kernel's run, read: the result array ends at the specification's `result` of the seven argument
    arrays — the second region's sixteen result blocks, each the result rows of its batch against the state block the
    first region left for that batch — and the arguments end as launched. -/
theorem kernel_value (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v3)
          = Cert.FlowAttention.result (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
              (m ((c.tc : Thread Cert.KernelIdeal.nD Cert.KernelIdeal.τ).loc Cert.KernelIdeal.main_arg5))
              (m ((c.tc : Thread Cert.KernelIdeal.nD Cert.KernelIdeal.τ).loc Cert.KernelIdeal.main_arg6))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  (θ_run (Cert.KernelIdeal.defs (F := Ideal)) _ _).mono
    (fun r h c => ⟨(h c).1.trans ((Cert.KernelIdeal.Gen.W3_arr m ρ c 4).trans
        (Cert.FlowAttention.OutValue.result_final m ρ c (Cert.FlowAttention.KernelState.state_final m ρ c))), (h c).2⟩)
    (Cert.FlowAttention.KernelRun.run m ρ)

/-- On the extended reals both programs end with the specification's `result` of arguments that agree: the kernel by
    its two regions read block by block, the reference by its host operations read one at a time. -/
theorem algebraic : Cert.algebraic_KernelIdeal_ReferenceIdeal := by
  intro m ρ m' ρ' _ hagree
  refine ⟨_, kernel_value m ρ, ?_⟩
  refine (θ_run (Cert.ReferenceIdeal.defs (F := Ideal)) _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v55_eq, Cert.FlowAttention.Reference.result_eq, h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
